-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S131072x8x8 : S_.BroadcastsInDim S131072x8x8 (![] : Fin 0 → Fin S131072x8x8.rank)
  reducesTo_S131072x8x8_S_d0_1_2 : S131072x8x8.ReducesTo [0, 1, 2] S_
  bcast_S_S131072x8x6 : S_.BroadcastsInDim S131072x8x6 (![] : Fin 0 → Fin S131072x8x6.rank)
  reducesTo_S131072x8x6_S_d0_1_2 : S131072x8x6.ReducesTo [0, 1, 2] S_
  bcast_S_S8x8 : S_.BroadcastsInDim S8x8 (![] : Fin 0 → Fin S8x8.rank)
  reducesTo_S8x8_S_d0_1 : S8x8.ReducesTo [0, 1] S_
  bcast_S_S1x8 : S_.BroadcastsInDim S1x8 (![] : Fin 0 → Fin S1x8.rank)
  reducesTo_S1x8_S_d0_1 : S1x8.ReducesTo [0, 1] S_
  bcast_S_S6x8 : S_.BroadcastsInDim S6x8 (![] : Fin 0 → Fin S6x8.rank)
  reducesTo_S6x8_S_d0_1 : S6x8.ReducesTo [0, 1] S_
  bcast_S_S16x32 : S_.BroadcastsInDim S16x32 (![] : Fin 0 → Fin S16x32.rank)
  reducesTo_S16x32_S_d0_1 : S16x32.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg7 : FVec F S16x32 .f32) (main_arg8 : FVec F S1x32 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  main_v43

def fn_part1 {F : FTy → Type} [FloatOps F] (main_arg4 : FVec F S1x8 .f32) (main_arg5 : FVec F S6x8 .f32) (main_arg6 : FVec F S1x8 .f32) (main_arg7 : FVec F S16x32 .f32) (main_arg8 : FVec F S1x32 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  let main_v24 : FVec F S6x8 .f32 := Host.absf main_arg5
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S1x8 .f32 := Host.absf main_arg6
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  fn_part2 (F := F) main_arg7 main_arg8 main_v33

def fn {F : FTy → Type} [FloatOps F] (main_arg0 : FVec F S131072x8 .f32) (main_arg1 : FVec F S131072x8x8 .f32) (main_arg2 : FVec F S131072x8x6 .f32) (main_arg3 : FVec F S8x8 .f32) (main_arg4 : FVec F S1x8 .f32) (main_arg5 : FVec F S6x8 .f32) (main_arg6 : FVec F S1x8 .f32) (main_arg7 : FVec F S16x32 .f32) (main_arg8 : FVec F S1x32 .f32) : IVec S_ 1 :=
  let main_v0 : FVec F S131072x8 .f32 := Host.absf main_arg0
  let main_cst : FVec F S_ .f32 := constant S_ .f32 0x7F800000#32
  let main_v1 : FVec F S131072x8 .f32 := broadcastInDim S131072x8 ![] bcast_S_S131072x8 main_cst
  let main_v2 : IVec S131072x8 1 := cmpf .olt main_v0 main_v1
  let main_c : IVec S_ 1 := constantI S_ 1 1#1
  let main_v3 : IVec S_ 1 := (fun x v => Host.reduce IntOp.andi x v reducesTo_S131072x8_S_d0_1 h_S_) main_v2 main_c
  let main_v4 : FVec F S131072x8x8 .f32 := Host.absf main_arg1
  let main_cst_0 : FVec F S_ .f32 := constant S_ .f32 0x7F800000#32
  let main_v5 : FVec F S131072x8x8 .f32 := broadcastInDim S131072x8x8 ![] bcast_S_S131072x8x8 main_cst_0
  let main_v6 : IVec S131072x8x8 1 := cmpf .olt main_v4 main_v5
  let main_c_1 : IVec S_ 1 := constantI S_ 1 1#1
  let main_v7 : IVec S_ 1 := (fun x v => Host.reduce IntOp.andi x v reducesTo_S131072x8x8_S_d0_1_2 h_S_) main_v6 main_c_1
  let main_v8 : IVec S_ 1 := andi main_v3 main_v7
  let main_v9 : FVec F S131072x8x6 .f32 := Host.absf main_arg2
  let main_cst_2 : FVec F S_ .f32 := constant S_ .f32 0x7F800000#32
  let main_v10 : FVec F S131072x8x6 .f32 := broadcastInDim S131072x8x6 ![] bcast_S_S131072x8x6 main_cst_2
  let main_v11 : IVec S131072x8x6 1 := cmpf .olt main_v9 main_v10
  let main_c_3 : IVec S_ 1 := constantI S_ 1 1#1
  let main_v12 : IVec S_ 1 := (fun x v => Host.reduce IntOp.andi x v reducesTo_S131072x8x6_S_d0_1_2 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_v13 main_v16
-- ==== Kernel.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S32x8 : Shape := ⟨2, ![32, 8]⟩
abbrev S32x64 : Shape := ⟨2, ![32, 64]⟩
abbrev S32x48 : Shape := ⟨2, ![32, 48]⟩
abbrev S32x1 : Shape := ⟨2, ![32, 1]⟩
abbrev S8x32 : Shape := ⟨2, ![8, 32]⟩
abbrev S32x6 : Shape := ⟨2, ![32, 6]⟩
abbrev S32x6x1 : Shape := ⟨3, ![32, 6, 1]⟩
abbrev S32x6x8 : Shape := ⟨3, ![32, 6, 8]⟩
abbrev S8x131072 : Shape := ⟨2, ![8, 131072]⟩
abbrev S8x8x131072 : Shape := ⟨3, ![8, 8, 131072]⟩
abbrev S64x131072 : Shape := ⟨2, ![64, 131072]⟩
abbrev S6x8x131072 : Shape := ⟨3, ![6, 8, 131072]⟩
abbrev S48x131072 : Shape := ⟨2, ![48, 131072]⟩
abbrev S32x131072 : Shape := ⟨2, ![32, 131072]⟩
abbrev S8x16384 : Shape := ⟨2, ![8, 16384]⟩
abbrev S64x16384 : Shape := ⟨2, ![64, 16384]⟩
abbrev S48x16384 : Shape := ⟨2, ![48, 16384]⟩
abbrev S32x16384 : Shape := ⟨2, ![32, 16384]⟩
abbrev S131072x32 : Shape := ⟨2, ![131072, 32]⟩

abbrev nBuf : Space → Nat
  | .hbm => 20
  | .vmem => 22
  | .smem => 0
  | _ => 0

abbrev bufTy : (tb : Table) → Fin (tcTables nBuf tb) → BufTy
  | .hbm, ⟨0, _⟩ => ⟨S131072x8, .f32⟩
  | .hbm, ⟨1, _⟩ => ⟨S131072x8x8, .f32⟩
  | .hbm, ⟨2, _⟩ => ⟨S131072x8x6, .f32⟩
  | .hbm, ⟨3, _⟩ => ⟨S8x8, .f32⟩
  | .hbm, ⟨4, _⟩ => ⟨S1x8, .f32⟩
  | .hbm, ⟨5, _⟩ => ⟨S6x8, .f32⟩
  | .hbm, ⟨6, _⟩ => ⟨S1x8, .f32⟩
  | .hbm, ⟨7, _⟩ => ⟨S16x32, .f32⟩
  | .hbm, ⟨8, _⟩ => ⟨S1x32, .f32⟩
  | .hbm, ⟨9, _⟩ => ⟨S32x8, .f32⟩
  | .hbm, ⟨10, _⟩ => ⟨S32x64, .f32⟩
  | .hbm, ⟨11, _⟩ => ⟨S32x48, .f32⟩
  | .hbm, ⟨12, _⟩ => ⟨S32x1, .f32⟩
  | .hbm, ⟨13, _⟩ => ⟨S8x131072, .f32⟩
  | .hbm, ⟨14, _⟩ => ⟨S8x8x131072, .f32⟩
  | .hbm, ⟨15, _⟩ => ⟨S64x131072, .f32⟩
  | .hbm, ⟨16, _⟩ => ⟨S6x8x131072, .f32⟩
  | .hbm, ⟨17, _⟩ => ⟨S48x131072, .f32⟩
  | .hbm, ⟨18, _⟩ => ⟨S32x131072, .f32⟩
  | .hbm, ⟨19, _⟩ => ⟨S131072x32, .f32⟩
  | .local _ .vmem, ⟨0, _⟩ => ⟨S8x8, .f32⟩
  | .local _ .vmem, ⟨1, _⟩ => ⟨S6x8, .f32⟩
  | .local _ .vmem, ⟨2, _⟩ => ⟨S16x32, .f32⟩
  | .local _ .vmem, ⟨3, _⟩ => ⟨S1x8, .f32⟩
  | .local _ .vmem, ⟨4, _⟩ => ⟨S1x8, .f32⟩
  | .local _ .vmem, ⟨5, _⟩ => ⟨S1x32, .f32⟩
  | .local _ .vmem, ⟨6, _⟩ => ⟨S32x8, .f32⟩
  | .local _ .vmem, ⟨7, _⟩ => ⟨S32x64, .f32⟩
  | .local _ .vmem, ⟨8, _⟩ => ⟨S32x48, .f32⟩
  | .local _ .vmem, ⟨9, _⟩ => ⟨S32x1, .f32⟩
  | .local _ .vmem, ⟨10, _⟩ => ⟨S8x16384, .f32⟩
  | .local _ .vmem, ⟨11, _⟩ => ⟨S8x16384, .f32⟩
  | .local _ .vmem, ⟨12, _⟩ => ⟨S64x16384, .f32⟩
  | .local _ .vmem, ⟨13, _⟩ => ⟨S64x16384, .f32⟩
  | .local _ .vmem, ⟨14, _⟩ => ⟨S48x16384, .f32⟩
  | .local _ .vmem, ⟨15, _⟩ => ⟨S48x16384, .f32⟩
  | .local _ .vmem, ⟨16, _⟩ => ⟨S32x8, .f32⟩
  | .local _ .vmem, ⟨17, _⟩ => ⟨S32x64, .f32⟩
  | .local _ .vmem, ⟨18, _⟩ => ⟨S32x48, .f32⟩
  | .local _ .vmem, ⟨19, _⟩ => ⟨S32x1, .f32⟩
  | .local _ .vmem, ⟨20, _⟩ => ⟨S32x16384, .f32⟩
  | .local _ .vmem, ⟨21, _⟩ => ⟨S32x16384, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := .none

abbrev stage0_0 : Fin 1 → Memref sig .tc .vmem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S48x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x16384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S16x32_S8x32_0_0 : ∀ a, (![0, 0] : Fin 2 → Nat) a + S8x32.size a ≤ S16x32.size a
  h_S8x32 : 0 < S8x32.numel
  inb_S16x32_S8x32_8_0 : ∀ a, (![8, 0] : Fin 2 → Nat) a + S8x32.size a ≤ S16x32.size a
  inb_S8x8_S8x8_0_0 : ∀ a, (![0, 0] : Fin 2 → Nat) a + S8x8.size a ≤ S8x8.size a
  h_S8x8 : 0 < S8x8.numel
  inb_S6x8_S6x8_0_0 : ∀ a, (![0, 0] : Fin 2 → Nat) a + S6x8.size a ≤ S6x8.size a
  h_S6x8 : 0 < S6x8.numel
  inb_S32x8_S32x8_0_0 : ∀ a, (![0, 0] : Fin 2 → Nat) a + S32x8.size a ≤ S32x8.size a
  h_S32x8 : 0 < S32x8.numel
  concatenates_S32x8_S32x8_S32x8_S32x8_S32x8_S32x8_S32x8_S32x8_S32x64_d1 : Shape.Concatenates [S32x8, S32x8, S32x8, S32x8, S32x8, S32x8, S32x8, S32x8] S32x64 1
  inb_S32x64_S32x64_0_0 : ∀ a, (![0, 0] : Fin 2 → Nat) a + S32x64.size a ≤ S32x64.size a
  h_S32x64 : 0 < S32x64.numel
  shapeCasts_S32x6_S32x6x1 : S32x6.ShapeCasts S32x6x1
  broadcasts_S32x6x1_S32x6x8 : S32x6x1.Broadcasts S32x6x8
  shapeCasts_S32x6x8_S32x48 : S32x6x8.ShapeCasts S32x48
  inb_S32x48_S32x48_0_0 : ∀ a, (![0, 0] : Fin 2 → Nat) a + S32x48.size a ≤ S32x48.size a
  h_S32x48 : 0 < S32x48.numel
  inb_S1x8_S1x8_0_0 : ∀ a, (![0, 0] : Fin 2 → Nat) a + S1x8.size a ≤ S1x8.size a
  h_S1x8 : 0 < S1x8.numel
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S32x1_S32x1_0_0 : ∀ a, (![0, 0] : Fin 2 → Nat) a + S32x1.size a ≤ S32x1.size a
  h_S32x1 : 0 < S32x1.numel
  transposes_S131072x8_S8x131072_1_0 : S131072x8.Transposes [1, 0] S8x131072
  transposes_S131072x8x8_S8x8x131072_1_2_0 : S131072x8x8.Transposes [1, 2, 0] S8x8x131072
  shapeCasts_S8x8x131072_S64x131072 : S8x8x131072.ShapeCasts S64x131072
  transposes_S131072x8x6_S6x8x131072_2_1_0 : S131072x8x6.Transposes [2, 1, 0] S6x8x131072
  shapeCasts_S6x8x131072_S48x131072 : S6x8x131072.ShapeCasts S48x131072
  shapeCasts_S32x8_S32x8 : S32x8.ShapeCasts S32x8
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  shapeCasts_S32x64_S32x64 : S32x64.ShapeCasts S32x64
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  shapeCasts_S32x48_S32x48 : S32x48.ShapeCasts S32x48
  inb_S48x16384_S48x16384_0_0 : ∀ a, (![0, 0] : Fin 2 → Nat) a + S48x16384.size a ≤ S48x16384.size a
  h_S48x16384 : 0 < S48x16384.numel
  shapeCasts_S48x16384_S48x16384 : S48x16384.ShapeCasts S48x16384
  shapeCasts_S32x1_S32x1 : S32x1.ShapeCasts S32x1
  broadcasts_S32x1_S32x16384 : S32x1.Broadcasts S32x16384
  inb_S32x16384_S32x16384_0_0 : ∀ a, (![0, 0] : Fin 2 → Nat) a + S32x16384.size a ≤ S32x16384.size a
  h_S32x16384 : 0 < S32x16384.numel
  transposes_S32x131072_S131072x32_1_0 : S32x131072.Transposes [1, 0] S131072x32
  dot_S8x32_S8x8_S32x8_0_1_1_0_n_n_wf : DotDims.WF S8x32 S8x8 S32x8 [0] [1] [1] [0] [] []
  dot_S8x32_S6x8_S32x6_0_1_1_0_n_n_wf : DotDims.WF S8x32 S6x8 S32x6 [0] [1] [1] [0] [] []
  dot_S1x8_S8x32_S1x32_1_0_0_1_n_n_wf : DotDims.WF S1x8 S8x32 S1x32 [1] [0] [0] [1] [] []
  dot_S32x8_S8x16384_S32x16384_1_0_0_1_n_n_wf : DotDims.WF S32x8 S8x16384 S32x16384 [1] [0] [0] [1] [] []
  dot_S32x64_S64x16384_S32x16384_1_0_0_1_n_n_wf : DotDims.WF S32x64 S64x16384 S32x16384 [1] [0] [0] [1] [] []
  dot_S32x48_S48x16384_S32x16384_1_0_0_1_n_n_wf : DotDims.WF S32x48 S48x16384 S32x16384 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16384.size a ≤ S8x131072.size a
  hwx1_0 : ∀ i : grid1.Coords, EltTy.bits .f32 = 32 ∨ (Rect.block (s := S8x131072) S8x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16384.size a ≤ S64x131072.size a
  hwx1_1 : ∀ i : grid1.Coords, EltTy.bits .f32 = 32 ∨ (Rect.block (s := S64x131072) S64x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S48x16384.size a ≤ S48x131072.size a
  hwx1_2 : ∀ i : grid1.Coords, EltTy.bits .f32 = 32 ∨ (Rect.block (s := S48x131072) S48x16384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8.size a ≤ S32x8.size a
  hwx1_3 : ∀ i : grid1.Coords, EltTy.bits .f32 = 32 ∨ (Rect.block (s := S32x8) S32x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x48.size a ≤ S32x48.size a
  hwx1_5 : ∀ i : grid1.Coords, EltTy.bits .f32 = 32 ∨ (Rect.block (s := S32x48) S32x48.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x16384.size a ≤ S32x131072.size a
  hwx1_7 : ∀ i : grid1.Coords, EltTy.bits .f32 = 32 ∨ (Rect.block (s := S32x131072) S32x16384.size (cc1_transform_7 i) (hinb1_7 i)).WholeWords (EltTy.packing .f32)

variable [Facts₀]

def dot_S8x32_S8x8_S32x8_0_1_1_0_n_n : DotDims S8x32 S8x8 S32x8 where
  lhsContracting := [0]
  rhsContracting := [1]
  lhsNonContracting := [1]
  rhsNonContracting := [0]
  lhsBatch := []
  rhsBatch := []
  wf := dot_S8x32_S8x8_S32x8_0_1_1_0_n_n_wf
def dot_S8x32_S6x8_S32x6_0_1_1_0_n_n : DotDims S8x32 S6x8 S32x6 where
  lhsContracting := [0]
  rhsContracting := [1]
  lhsNonContracting := [1]
  rhsNonContracting := [0]
  lhsBatch := []
  rhsBatch := []
  wf := dot_S8x32_S6x8_S32x6_0_1_1_0_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S32x8_S8x16384_S32x16384_1_0_0_1_n_n : DotDims S32x8 S8x16384 S32x16384 where
  lhsContracting := [1]
  rhsContracting := [0]
  lhsNonContracting := [0]
  rhsNonContracting := [1]
  lhsBatch := []
  rhsBatch := []
  wf := dot_S32x8_S8x16384_S32x16384_1_0_0_1_n_n_wf
def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf
def dot_S32x48_S48x16384_S32x16384_1_0_0_1_n_n : DotDims S32x48 S48x16384 S32x16384 where
  lhsContracting := [1]
  rhsContracting := [0]
  lhsNonContracting := [0]
  rhsNonContracting := [1]
  lhsBatch := []
  rhsBatch := []
  wf := dot_S32x48_S48x16384_S32x16384_1_0_0_1_n_n_wf

abbrev win0_0 : Pipeline.Window sig grid0 :=
  Pipeline.Window.whole (Memref.whole main_arg3) false false (stage0_0 0) (sem0_0 0) (Memref.isWhole_whole _) (hstage0_0 0)

abbrev win0_1 : Pipeline.Window sig grid0 :=
  Pipeline.Window.whole (Memref.whole main_arg5) false false (stage0_1 0) (sem0_1 0) (Memref.isWhole_whole _) (hstage0_1 0)

abbrev win0_2 : Pipeline.Window sig grid0 :=
  Pipeline.Window.whole (Memref.whole main_arg7) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_arg8) false false (stage0_5 0) (sem0_5 0) (Memref.isWhole_whole _) (hstage0_5 0)

abbrev win0_6 : Pipeline.Window sig grid0 :=
  Pipeline.Window.whole (Memref.whole main_v0_0) true false (stage0_6 0) (sem0_6 0) (Memref.isWhole_whole _) (hstage0_6 0)

abbrev win0_7 : Pipeline.Window sig grid0 :=
  Pipeline.Window.whole (Memref.whole main_v0_1) true false (stage0_7 0) (sem0_7 0) (Memref.isWhole_whole _) (hstage0_7 0)

abbrev win0_8 : Pipeline.Window sig grid0 :=
  Pipeline.Window.whole (Memref.whole main_v0_2) true false (stage0_8 0) (sem0_8 0) (Memref.isWhole_whole _) (hstage0_8 0)

abbrev win0_9 : Pipeline.Window sig grid0 :=
  Pipeline.Window.whole (Memref.whole main_v0_3) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S8x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S48x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S32x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S32x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0_3) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S32x16384.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S131072x64 : Shape := ⟨2, ![131072, 64]⟩
abbrev S131072x48 : Shape := ⟨2, ![131072, 48]⟩
abbrev S131072x120 : Shape := ⟨2, ![131072, 120]⟩
abbrev S8x32 : Shape := ⟨2, ![8, 32]⟩
abbrev S_ : Shape := ⟨0, ![]⟩
abbrev S6x32 : Shape := ⟨2, ![6, 32]⟩
abbrev S1x8x1x32 : Shape := ⟨4, ![1, 8, 1, 32]⟩
abbrev S9x8x1x32 : Shape := ⟨4, ![9, 8, 1, 32]⟩
abbrev S72x32 : Shape := ⟨2, ![72, 32]⟩
abbrev S1x6x1x32 : Shape := ⟨4, ![1, 6, 1, 32]⟩
abbrev S8x6x1x32 : Shape := ⟨4, ![8, 6, 1, 32]⟩
abbrev S48x32 : Shape := ⟨2, ![48, 32]⟩
abbrev S120x32 : Shape := ⟨2, ![120, 32]⟩
abbrev S131072x32 : Shape := ⟨2, ![131072, 32]⟩
abbrev S4096x120 : Shape := ⟨2, ![4096, 120]⟩
abbrev S4096x32 : Shape := ⟨2, ![4096, 32]⟩

abbrev nBuf : Space → Nat
  | .hbm => 37
  | .vmem => 6
  | .smem => 0
  | _ => 0

abbrev bufTy : (tb : Table) → Fin (tcTables nBuf tb) → BufTy
  | .hbm, ⟨0, _⟩ => ⟨S131072x8, .f32⟩
  | .hbm, ⟨1, _⟩ => ⟨S131072x8x8, .f32⟩
  | .hbm, ⟨2, _⟩ => ⟨S131072x8x6, .f32⟩
  | .hbm, ⟨3, _⟩ => ⟨S8x8, .f32⟩
  | .hbm, ⟨4, _⟩ => ⟨S1x8, .f32⟩
  | .hbm, ⟨5, _⟩ => ⟨S6x8, .f32⟩
  | .hbm, ⟨6, _⟩ => ⟨S1x8, .f32⟩
  | .hbm, ⟨7, _⟩ => ⟨S16x32, .f32⟩
  | .hbm, ⟨8, _⟩ => ⟨S1x32, .f32⟩
  | .hbm, ⟨9, _⟩ => ⟨S131072x64, .f32⟩
  | .hbm, ⟨10, _⟩ => ⟨S131072x48, .f32⟩
  | .hbm, ⟨11, _⟩ => ⟨S131072x120, .f32⟩
  | .hbm, ⟨12, _⟩ => ⟨S8x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S6x32, .f32⟩
  | .hbm, ⟨19, _⟩ => ⟨S_, .f32⟩
  | .hbm, ⟨20, _⟩ => ⟨S6x32, .f32⟩
  | .hbm, ⟨21, _⟩ => ⟨S6x32, .f32⟩
  | .hbm, ⟨22, _⟩ => ⟨S1x8x1x32, .f32⟩
  | .hbm, ⟨23, _⟩ => ⟨S9x8x1x32, .f32⟩
  | .hbm, ⟨24, _⟩ => ⟨S72x32, .f32⟩
  | .hbm, ⟨25, _⟩ => ⟨S1x6x1x32, .f32⟩
  | .hbm, ⟨26, _⟩ => ⟨S8x6x1x32, .f32⟩
  | .hbm, ⟨27, _⟩ => ⟨S48x32, .f32⟩
  | .hbm, ⟨28, _⟩ => ⟨S120x32, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S131072x32, .f32⟩
  | .local _ .vmem, ⟨0, _⟩ => ⟨S4096x120, .f32⟩
  | .local _ .vmem, ⟨1, _⟩ => ⟨S4096x120, .f32⟩
  | .local _ .vmem, ⟨2, _⟩ => ⟨S120x32, .f32⟩
  | .local _ .vmem, ⟨3, _⟩ => ⟨S1x32, .f32⟩
  | .local _ .vmem, ⟨4, _⟩ => ⟨S4096x32, .f32⟩
  | .local _ .vmem, ⟨5, _⟩ => ⟨S4096x32, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072x8x8_S131072x64 : S131072x8x8.ShapeCasts S131072x64
  shapeCasts_S131072x8x6_S131072x48 : S131072x8x6.ShapeCasts S131072x48
  concatenates_S131072x8_S131072x64_S131072x48_S131072x120_d1 : Shape.Concatenates [S131072x8, S131072x64, S131072x48] S131072x120 1
  slices_S16x32_S8x32_0_0 : S16x32.Slices ![0, 0] S8x32
  slices_S16x32_S8x32_8_0 : S16x32.Slices ![8, 0] S8x32
  bcast_S_S8x32 : S_.BroadcastsInDim S8x32 (![] : Fin 0 → Fin S8x32.rank)
  bcast_S_S6x32 : S_.BroadcastsInDim S6x32 (![] : Fin 0 → Fin S6x32.rank)
  shapeCasts_S8x32_S1x8x1x32 : S8x32.ShapeCasts S1x8x1x32
  bcast_S1x8x1x32_S9x8x1x32_0_1_2_3 : S1x8x1x32.BroadcastsInDim S9x8x1x32 (![0, 1, 2, 3] : Fin 4 → Fin S9x8x1x32.rank)
  shapeCasts_S9x8x1x32_S72x32 : S9x8x1x32.ShapeCasts S72x32
  shapeCasts_S6x32_S1x6x1x32 : S6x32.ShapeCasts S1x6x1x32
  bcast_S1x6x1x32_S8x6x1x32_0_1_2_3 : S1x6x1x32.BroadcastsInDim S8x6x1x32 (![0, 1, 2, 3] : Fin 4 → Fin S8x6x1x32.rank)
  shapeCasts_S8x6x1x32_S48x32 : S8x6x1x32.ShapeCasts S48x32
  concatenates_S72x32_S48x32_S120x32_d0 : Shape.Concatenates [S72x32, S48x32] S120x32 0
  bcast_S_S1x32 : S_.BroadcastsInDim S1x32 (![] : Fin 0 → Fin S1x32.rank)
  inb_S4096x120_S4096x120_0_0 : ∀ a, (![0, 0] : Fin 2 → Nat) a + S4096x120.size a ≤ S4096x120.size a
  h_S4096x120 : 0 < S4096x120.numel
  shapeCasts_S4096x120_S4096x120 : S4096x120.ShapeCasts S4096x120
  inb_S120x32_S120x32_0_0 : ∀ a, (![0, 0] : Fin 2 → Nat) a + S120x32.size a ≤ S120x32.size a
  h_S120x32 : 0 < S120x32.numel
  shapeCasts_S120x32_S120x32 : S120x32.ShapeCasts S120x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  dot_S8x8_S8x32_S8x32_1_0_0_1_n_n_wf : DotDims.WF S8x8 S8x32 S8x32 [1] [0] [0] [1] [] []
  dot_S6x8_S8x32_S6x32_1_0_0_1_n_n_wf : DotDims.WF S6x8 S8x32 S6x32 [1] [0] [0] [1] [] []
  dot_S1x8_S8x32_S1x32_1_0_0_1_n_n_wf : DotDims.WF S1x8 S8x32 S1x32 [1] [0] [0] [1] [] []
  dot_S4096x120_S120x32_S4096x32_1_0_0_1_n_n_wf : DotDims.WF S4096x120 S120x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x120.size a ≤ S131072x120.size a
  hwx0_0 : ∀ i : grid0.Coords, EltTy.bits .f32 = 32 ∨ (Rect.block (s := S131072x120) S4096x120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x32.size a ≤ S120x32.size a
  hwx0_1 : ∀ i : grid0.Coords, EltTy.bits .f32 = 32 ∨ (Rect.block (s := S120x32) S120x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S131072x32.size a
  hwx0_3 : ∀ i : grid0.Coords, EltTy.bits .f32 = 32 ∨ (Rect.block (s := S131072x32) S4096x32.size (cc0_transform_3 i) (hinb0_3 i)).WholeWords (EltTy.packing .f32)

variable [Facts₀]

def dot_S8x8_S8x32_S8x32_1_0_0_1_n_n : DotDims S8x8 S8x32 S8x32 where
  lhsContracting := [1]
  rhsContracting := [0]
  lhsNonContracting := [0]
  rhsNonContracting := [1]
  lhsBatch := []
  rhsBatch := []
  wf := dot_S8x8_S8x32_S8x32_1_0_0_1_n_n_wf
def dot_S6x8_S8x32_S6x32_1_0_0_1_n_n : DotDims S6x8 S8x32 S6x32 where
  lhsContracting := [1]
  rhsContracting := [0]
  lhsNonContracting := [0]
  rhsNonContracting := [1]
  lhsBatch := []
  rhsBatch := []
  wf := dot_S6x8_S8x32_S6x32_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S4096x120_S120x32_S4096x32_1_0_0_1_n_n : DotDims S4096x120 S120x32 S4096x32 where
  lhsContracting := [1]
  rhsContracting := [0]
  lhsNonContracting := [0]
  rhsNonContracting := [1]
  lhsBatch := []
  rhsBatch := []
  wf := dot_S4096x120_S120x32_S4096x32_1_0_0_1_n_n_wf

abbrev win0_0 : Pipeline.Window sig grid0 :=
  Pipeline.Window.ofSpec (Memref.whole main_v2) S4096x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S120x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4096x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KerRun.lean ====
/-
  The kernel's whole run with its result named, at any float instance.

  The program is four segments: the gridless region that folds the weights, a stretch of host operations that lays the
  node features feature-major (transposes and reshapes), the region of 8 points that multiplies, and one last transpose.
  The buffer contents after each segment are a fold from the launch memory; `W4` is the last. The run below is the frame
  run of those four segments with one more reading at the end: the result buffer holds `W4`'s contents for it.
-/
import proofs.«100832_g2000702531665673_pallasbulk_716_14_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result named: from any memory with zero counters every weakly fair execution terminates, nothing
    faulting; the result buffer ends at the last boundary's contents `W4` and the nine argument arrays as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Hand

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.Spec.lean ====
/-
  The mean-pool layer as one function of the nine argument arrays, and the two arrangements of it.

  A node n has its own 8 features x(n, ·), the features xs(n, d, ·) of its 8 source neighbours d and the 6 features
  ef(n, d, ·) of the 8 edges from them. The layer's three linear maps and the mean over the 9 states fold into
      pooled(n, r) = Σ_f x(n,f)·N(f,r) + Σ_d Σ_f xs(n,d,f)·N(f,r) + Σ_d Σ_e ef(n,d,e)·E(e,r) + B(r)
  with N(f,r) = (Σ_k wn(f,k)·wr(k,r))·c, E(e,r) = (Σ_k we(e,k)·wr(8+k,r))·c and
  B(r) = Σ_k bn(k)·wr(k,r) + c'·Σ_k be(k)·wr(8+k,r) + br(r), where c and c' are the two float constants both programs
  carry (the roundings of 1/9 and 8/9: the same two words on both sides, never evaluated).

  One program multiplies the folded weights by the features laid feature-major, in three products of lengths 8, 64 and
  48 whose 64 positions run (d, f) ↦ 8d + f and whose 48 positions run (e, d) ↦ 8e + d; the other multiplies one slab of
  120 numbers per node, laid x | xs at 8 + 8d + f | ef at 72 + 6d + e, by one folded matrix. Both are `pooled`: only
  the commutativity of the product and the commutativity and associativity of the sum are used, which hold on all
  extended reals, so no finiteness is needed.
-/
import Idealize.ShloMosaic.PureOps.Ideal
import Idealize.ShloMosaic.Lib.ValueIdx
import proofs.«100832_g2000702531665673_pallasbulk_716_14_alg».proof.Proof.LibChunkSum

noncomputable section

open scoped BigOperators

namespace Cert.MeanPool

open Idealize.ShloMosaic Idealize.ShloMosaic.ValueIdx

/-- The two float constants, as the extended reals their words denote. -/
abbrev c9 : EReal := Ideal.ofBits .f32 0x3DE38E39#32
abbrev c89 : EReal := Ideal.ofBits .f32 0x3F638E39#32

/-- Row k of the node half, and of the edge half, of the [16, 32] reduce weights. -/
abbrev lo (k : Fin 8) : Fin 16 := ⟨k.val, by omega⟩
abbrev hi (k : Fin 8) : Fin 16 := ⟨8 + k.val, by omega⟩

/-- Position f of neighbour d among the 64 neighbour features; edge feature e of neighbour d among the 48 edge features
    laid feature-major (one program) and neighbour-major (the other). -/
abbrev at64 (d f : Fin 8) : Fin 64 := ⟨8 * d.val + f.val, by omega⟩
abbrev at48f (e : Fin 6) (d : Fin 8) : Fin 48 := ⟨8 * e.val + d.val, by omega⟩
abbrev at48n (d : Fin 8) (e : Fin 6) : Fin 48 := ⟨6 * d.val + e.val, by omega⟩

/-- The three stretches of a node's slab of 120 numbers. -/
abbrev slabX (f : Fin 8) : Fin 120 := ⟨f.val, by omega⟩
abbrev slabS (j : Fin 64) : Fin 120 := ⟨8 + j.val, by omega⟩
abbrev slabE (j : Fin 48) : Fin 120 := ⟨72 + j.val, by omega⟩

section Layer

variable (x : (⟨2, ![131072, 8]⟩ : Shape).Idx → EReal) (xs : (⟨3, ![131072, 8, 8]⟩ : Shape).Idx → EReal)
  (ef : (⟨3, ![131072, 8, 6]⟩ : Shape).Idx → EReal) (wn : (⟨2, ![8, 8]⟩ : Shape).Idx → EReal) (bn : (⟨2, ![1, 8]⟩ : Shape).Idx → EReal)
  (we : (⟨2, ![6, 8]⟩ : Shape).Idx → EReal) (be : (⟨2, ![1, 8]⟩ : Shape).Idx → EReal) (wr : (⟨2, ![16, 32]⟩ : Shape).Idx → EReal)
  (br : (⟨2, ![1, 32]⟩ : Shape).Idx → EReal)

/-- The folded node weights, edge weights and bias. -/
def nodeFold (f : Fin 8) (r : Fin 32) : EReal := (∑ k : Fin 8, wn (ix2 f k) * wr (ix2 (lo k) r)) * c9
def edgeFold (e : Fin 6) (r : Fin 32) : EReal := (∑ k : Fin 8, we (ix2 e k) * wr (ix2 (hi k) r)) * c9
def biasFold (r : Fin 32) : EReal :=
  ((∑ k : Fin 8, bn (ix2 (0 : Fin 1) k) * wr (ix2 (lo k) r)) + c89 * ∑ k : Fin 8, be (ix2 (0 : Fin 1) k) * wr (ix2 (hi k) r))
    + br (ix2 (0 : Fin 1) r)

/-- The layer at node n, output feature r. -/
def pooled (n : Fin 131072) (r : Fin 32) : EReal :=
  (((∑ f : Fin 8, x (ix2 n f) * nodeFold wn wr f r) + ∑ d : Fin 8, ∑ f : Fin 8, xs (ix3 n d f) * nodeFold wn wr f r)
      + ∑ d : Fin 8, ∑ e : Fin 6, ef (ix3 n d e) * edgeFold we wr e r)
    + biasFold bn be wr br r

/-- The folded node weights with the two factors of each product in the other order. -/
theorem nodeFold_swap (f : Fin 8) (r : Fin 32) :
    (∑ k : Fin 8, wr (ix2 (lo k) r) * wn (ix2 f k)) * c9 = nodeFold wn wr f r :=
  congrArg (· * c9) (Finset.sum_congr rfl fun k _ => mul_comm _ _)

theorem edgeFold_swap (e : Fin 6) (r : Fin 32) :
    (∑ k : Fin 8, wr (ix2 (hi k) r) * we (ix2 e k)) * c9 = edgeFold we wr e r :=
  congrArg (· * c9) (Finset.sum_congr rfl fun k _ => mul_comm _ _)

/-- THE FEATURE-MAJOR ARRANGEMENT. Three products of lengths 8, 64, 48 — weights first — whose factors are, position by
    position, the folded weights and the node's features, plus the folded bias: the layer. -/
theorem pooled_of_three (n : Fin 131072) (r : Fin 32) (A1 X1 : Fin 8 → EReal) (A2 X2 : Fin 64 → EReal) (A3 X3 : Fin 48 → EReal) (b : EReal)
    (hA1 : ∀ f, A1 f = nodeFold wn wr f r) (hX1 : ∀ f, X1 f = x (ix2 n f))
    (hA2 : ∀ d f, A2 (at64 d f) = nodeFold wn wr f r) (hX2 : ∀ d f, X2 (at64 d f) = xs (ix3 n d f))
    (hA3 : ∀ e d, A3 (at48f e d) = edgeFold we wr e r) (hX3 : ∀ e d, X3 (at48f e d) = ef (ix3 n d e))
    (hb : b = biasFold bn be wr br r) :
    (((∑ k, A1 k * X1 k) + ∑ j, A2 j * X2 j) + ∑ j, A3 j * X3 j) + b = pooled x xs ef wn bn we be wr br n r := by
  have h2 : ∑ j : Fin 64, A2 j * X2 j = ∑ d : Fin 8, ∑ f : Fin 8, A2 (at64 d f) * X2 (at64 d f) :=
    Cert.LibChunkSum.sum_chunks 8 8 (fun j : Fin 64 => A2 j * X2 j) at64 (fun _ _ => rfl)
  have h3 : ∑ j : Fin 48, A3 j * X3 j = ∑ e : Fin 6, ∑ d : Fin 8, A3 (at48f e d) * X3 (at48f e d) :=
    Cert.LibChunkSum.sum_chunks 6 8 (fun j : Fin 48 => A3 j * X3 j) at48f (fun _ _ => rfl)
  unfold pooled
  refine congrArg₂ (· + ·) (congrArg₂ (· + ·) (congrArg₂ (· + ·) ?_ ?_) ?_) hb
  · exact Finset.sum_congr rfl fun f _ => by rw [hA1, hX1, mul_comm]
  · rw [h2]; exact Finset.sum_congr rfl fun d _ => Finset.sum_congr rfl fun f _ => by rw [hA2, hX2, mul_comm]
  · rw [h3, Finset.sum_comm]
    exact Finset.sum_congr rfl fun d _ => Finset.sum_congr rfl fun e _ => by rw [hA3, hX3, mul_comm]

/-- A sum over 120 positions is the sum over its stretches of 8, 64 and 48. -/
theorem sum_slab {M : Type*} [AddCommMonoid M] (T : Fin 120 → M) :
    ∑ j, T j = ((∑ f : Fin 8, T (slabX f)) + ∑ j : Fin 64, T (slabS j)) + ∑ j : Fin 48, T (slabE j) := by
  have h1 : ∑ j : Fin 120, T j = (∑ i : Fin 72, T ⟨i.val, by omega⟩) + ∑ j : Fin 48, T (slabE j) :=
    Fin.sum_univ_add (a := 72) (b := 48) T
  have h2 : ∑ i : Fin 72, T ⟨i.val, by omega⟩ = (∑ f : Fin 8, T (slabX f)) + ∑ j : Fin 64, T (slabS j) :=
    Fin.sum_univ_add (a := 8) (b := 64) (fun i : Fin 72 => T ⟨i.val, by omega⟩)
  rw [h1, h2]

/-- THE SLAB ARRANGEMENT. One product of length 120 — features first — whose factors are, stretch by stretch, the node's
    features and the folded weights, plus the folded bias: the layer. -/
theorem pooled_of_slab (n : Fin 131072) (r : Fin 32) (S W : Fin 120 → EReal) (b : EReal)
    (hSx : ∀ f, S (slabX f) = x (ix2 n f)) (hWx : ∀ f, W (slabX f) = nodeFold wn wr f r)
    (hSs : ∀ d f, S (slabS (at64 d f)) = xs (ix3 n d f)) (hWs : ∀ d f, W (slabS (at64 d f)) = nodeFold wn wr f r)
    (hSe : ∀ d e, S (slabE (at48n d e)) = ef (ix3 n d e)) (hWe : ∀ d e, W (slabE (at48n d e)) = edgeFold we wr e r)
    (hb : b = biasFold bn be wr br r) :
    (∑ j, S j * W j) + b = pooled x xs ef wn bn we be wr br n r := by
  have h2 : ∑ j : Fin 64, S (slabS j) * W (slabS j) = ∑ d : Fin 8, ∑ f : Fin 8, S (slabS (at64 d f)) * W (slabS (at64 d f)) :=
    Cert.LibChunkSum.sum_chunks 8 8 (fun j : Fin 64 => S (slabS j) * W (slabS j)) at64 (fun _ _ => rfl)
  have h3 : ∑ j : Fin 48, S (slabE j) * W (slabE j) = ∑ d : Fin 8, ∑ e : Fin 6, S (slabE (at48n d e)) * W (slabE (at48n d e)) :=
    Cert.LibChunkSum.sum_chunks 8 6 (fun j : Fin 48 => S (slabE j) * W (slabE j)) at48n (fun _ _ => rfl)
  rw [sum_slab (fun j => S j * W j)]
  unfold pooled
  refine congrArg₂ (· + ·) (congrArg₂ (· + ·) (congrArg₂ (· + ·) ?_ ?_) ?_) hb
  · exact Finset.sum_congr rfl fun f _ => by rw [hSx, hWx]
  · rw [h2]; exact Finset.sum_congr rfl fun d _ => Finset.sum_congr rfl fun f _ => by rw [hSs, hWs]
  · rw [h3]; exact Finset.sum_congr rfl fun d _ => Finset.sum_congr rfl fun e _ => by rw [hSe, hWe]

end Layer

end Cert.MeanPool

end
-- ==== Proof.LibLeadDot.lean ====
/-
  General lemma for a matrix product whose LEFT operand is contracted on its FIRST axis, read at the exact
  (extended-real) instance.

  * `leadLhs M K N`: the dimension numbers of a [K, M] left operand contracted on axis 0 with an [N, K] right operand
    contracted on axis 1 (jax's `dot_general(a, b, (((0,), (1,)), ((), ())))`), result [M, N].
  * `leadMM_zero_apply`: into a zero accumulator the product is at (p, j) the plain sum over k of left (k, p) times
    right (j, k); `leadMM_of_eq` is the same for any record of dimension numbers equal to `leadLhs`.
-/
import Idealize.ShloMosaic.Lib.ValueIdx
import Idealize.ShloMosaic.PureOps.Ideal.Laws

noncomputable section

open scoped BigOperators

namespace Cert.LeadDot

open Idealize.ShloMosaic Idealize.ShloMosaic.ValueIdx

/-- `<[0], [1], [1], [0], [], []>`: `K×M` by `N×K`, the left operand contracted on its first axis and the right on
    its last. -/
def leadLhs (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [], by simp [List.finRange],
    rfl, Nat.two_pos, fun b => by fin_cases b <;> rfl⟩

variable {M K N : ℕ}

/-- The left operand's row is the contraction position. -/
theorem lead_l0 (i : (⟨2, ![M, N]⟩ : Shape).Idx) (q : (leadLhs M K N).contr.Idx) :
    ((leadLhs M K N).lhsIdx i q 0).val = (q ⟨0, Nat.one_pos⟩).val :=
  (leadLhs M K N).lhsIdx_val_of_single rfl i q

/-- The left operand's column is the result's row. -/
theorem lead_l1 (i : (⟨2, ![M, N]⟩ : Shape).Idx) (q : (leadLhs M K N).contr.Idx) :
    ((leadLhs M K N).lhsIdx i q 1).val = (i 0).val := by
  unfold DotDims.lhsIdx
  rw [dif_neg (show ¬(1 : Fin (⟨2, ![K, M]⟩ : Shape).rank) ∈ (leadLhs M K N).lhsBatch from List.not_mem_nil),
    dif_pos (show (1 : Fin (⟨2, ![K, M]⟩ : Shape).rank) ∈ (leadLhs M K N).lhsNonContracting from List.mem_singleton.mpr rfl)]
  rfl

/-- The right operand's row is the result's column. -/
theorem lead_r0 (i : (⟨2, ![M, N]⟩ : Shape).Idx) (q : (leadLhs M K N).contr.Idx) :
    ((leadLhs M K N).rhsIdx i q 0).val = (i 1).val := by
  unfold DotDims.rhsIdx
  rw [dif_neg (show ¬(0 : Fin (⟨2, ![N, K]⟩ : Shape).rank) ∈ (leadLhs M K N).rhsBatch from List.not_mem_nil),
    dif_pos (show (0 : Fin (⟨2, ![N, K]⟩ : Shape).rank) ∈ (leadLhs M K N).rhsNonContracting from List.mem_singleton.mpr rfl)]
  rfl

/-- The right operand's column is the contraction position. -/
theorem lead_r1 (i : (⟨2, ![M, N]⟩ : Shape).Idx) (q : (leadLhs M K N).contr.Idx) :
    ((leadLhs M K N).rhsIdx i q 1).val = (q ⟨0, Nat.one_pos⟩).val :=
  (leadLhs M K N).rhsIdx_val_of_single rfl i q

/-- The product into a zero accumulator at (p, j): the sum over k of left (k, p) times right (j, k). -/
theorem leadMM_zero_apply {φ₁ φ₂ : FTy} (prec : Option ContractPrecision) (h : FVec Ideal ⟨2, ![K, M]⟩ φ₁) (w : FVec Ideal ⟨2, ![N, K]⟩ φ₂)
    (p : Fin M) (j : Fin N) :
    FloatOps.matmul (leadLhs M K N) prec h w (constant ⟨2, ![M, N]⟩ .f32 0x00000000#32) (ix2 p j)
      = ∑ k : Fin K, h (ix2 k p) * w (ix2 j k) := by
  rw [Ideal.matmul_constant_zero_apply, ← Equiv.sum_comp (contrEquiv1 (leadLhs M K N) K rfl rfl).symm]
  refine Finset.sum_congr rfl fun k _ => ?_
  have hk := contrEquiv1_symm_val (leadLhs M K N) K rfl rfl k
  have el : (leadLhs M K N).lhsIdx (ix2 p j) ((contrEquiv1 (leadLhs M K N) K rfl rfl).symm k) = ix2 k p :=
    funext fun a => Fin.ext (by
      match a with
      | ⟨0, _⟩ => exact (lead_l0 _ _).trans hk
      | ⟨1, _⟩ => exact lead_l1 _ _)
  have er : (leadLhs M K N).rhsIdx (ix2 p j) ((contrEquiv1 (leadLhs M K N) K rfl rfl).symm k) = ix2 j k :=
    funext fun a => Fin.ext (by
      match a with
      | ⟨0, _⟩ => exact lead_r0 _ _
      | ⟨1, _⟩ => exact (lead_r1 _ _).trans hk)
  rw [el, er]

/-- The same for any record of dimension numbers that is `leadLhs`. -/
theorem leadMM_of_eq {φ₁ φ₂ : FTy} (D : DotDims ⟨2, ![K, M]⟩ ⟨2, ![N, K]⟩ ⟨2, ![M, N]⟩) (hD : D = leadLhs M K N)
    (prec : Option ContractPrecision) (h : FVec Ideal ⟨2, ![K, M]⟩ φ₁) (w : FVec Ideal ⟨2, ![N, K]⟩ φ₂) (p : Fin M) (j : Fin N) :
    FloatOps.matmul D prec h w (constant ⟨2, ![M, N]⟩ .f32 0x00000000#32) (ix2 p j) = ∑ k : Fin K, h (ix2 k p) * w (ix2 j k) := by
  subst hD; exact leadMM_zero_apply prec h w p j

end Cert.LeadDot

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«100832_g2000702531665673_pallasbulk_716_14_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«100832_g2000702531665673_pallasbulk_716_14_alg».proof.Proof.LibDenseRows
import proofs.«100832_g2000702531665673_pallasbulk_716_14_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibAxisMerge.lean ====
/-
  General lemmas for reshapes that merge or split neighbouring axes, and for a matrix tiled down the rows, read at an index.

  A reshape keeps every element at its row-major position, so merging axes (j, k) of extents (b, c) into one axis puts
  (j, k) at position c·j + k, and merging (i, j) of extents (a, b) puts (i, j) at b·i + j.
  * `mergeLast_apply`:  [a, b, c] → [a, n], n = b·c, at (i, q) with q = c·j + k reads the operand at (i, j, k).
  * `mergeFirst_apply`: [a, b, c] → [m, c], m = a·b, at (p, k) with p = b·i + j reads the operand at (i, j, k).
  * `splitLast_apply`:  [a, n] → [a, b, c], n = b·c, at (i, j, k) reads the operand at (i, q) with q = c·j + k.
  * `rowTile_apply`: a [B, C] matrix recast as [1, B, 1, C], repeated T times along the new leading axis and recast as
    [T·B, C] (jnp.tile(w, (T, 1))) reads, at (p, r) with p = B·t + f, the matrix at (f, r).
-/
import Idealize.ShloMosaic.Lib.ValueIdx
import Idealize.ShloMosaic.Lib.Pipeline.Value

namespace Cert.AxisMerge

open Idealize.ShloMosaic Idealize.ShloMosaic.ValueIdx

variable {α : Type}

theorem mergeLast_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = c * j.val + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn]; ring)

theorem mergeFirst_apply {a b c m : ℕ} (x : (⟨3, ![a, b, c]⟩ : Shape).Idx → α)
    (h : (⟨3, ![a, b, c]⟩ : Shape).ShapeCasts ⟨2, ![m, c]⟩)
    (i : Fin a) (j : Fin b) (k : Fin c) (p : Fin m) (hp : p.val = b * i.val + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp]; ring)

theorem splitLast_apply {a b c n : ℕ} (x : (⟨2, ![a, n]⟩ : Shape).Idx → α)
    (h : (⟨2, ![a, n]⟩ : Shape).ShapeCasts ⟨3, ![a, b, c]⟩) (hn : n = b * c)
    (i : Fin a) (j : Fin b) (k : Fin c) (q : Fin n) (hq : q.val = c * j.val + k.val) :
    shapeCast ⟨3, ![a, b, c]⟩ x h (ix3 i j k) = x (ix2 i q) :=
  shapeCast_apply x h _ _ (by
    rw [Shape.rowMajor_val_three, Shape.rowMajor_val_two]
    show i.val * n + q.val = (i.val * b + j.val) * c + k.val
    rw [hq, hn]; ring)

/-- A [B, C] matrix tiled T times down the rows, as the host spells it. -/
theorem rowTile_apply {T B C P : ℕ} (x : (⟨2, ![B, C]⟩ : Shape).Idx → α)
    (h₁ : (⟨2, ![B, C]⟩ : Shape).ShapeCasts ⟨4, ![1, B, 1, C]⟩)
    (h₂ : (⟨4, ![1, B, 1, C]⟩ : Shape).BroadcastsInDim ⟨4, ![T, B, 1, C]⟩ ![0, 1, 2, 3])
    (h₃ : (⟨4, ![T, B, 1, C]⟩ : Shape).ShapeCasts ⟨2, ![P, C]⟩)
    (t : Fin T) (f : Fin B) (r : Fin C) (p : Fin P) (hp : p.val = B * t.val + f.val) :
    shapeCast ⟨2, ![P, C]⟩ (broadcastInDim ⟨4, ![T, B, 1, C]⟩ ![0, 1, 2, 3] h₂ (shapeCast ⟨4, ![1, B, 1, C]⟩ x h₁)) h₃ (ix2 p r)
      = x (ix2 f r) := by
  refine (shapeCast_apply _ h₃ (ix2 p r) (ix4 t f (0 : Fin 1) r) ?_).trans ?_
  · rw [Shape.rowMajor_val_four, Shape.rowMajor_val_two]
    show ((t.val * B + f.val) * 1 + 0) * C + r.val = p.val * C + r.val
    rw [hp]; ring
  refine (broadcastInDim_apply ![0, 1, 2, 3] h₂ _ (ix4 t f (0 : Fin 1) r) (ix4 (0 : Fin 1) f (0 : Fin 1) r) fun ax => ?_).trans ?_
  · match ax with
    | ⟨0, _⟩ => show (0 : ℕ) = if (1 : ℕ) = 1 then 0 else t.val; rw [if_pos rfl]
    | ⟨1, _⟩ =>
      show f.val = if B = 1 then 0 else f.val
      split
      · have := f.isLt; omega
      · rfl
    | ⟨2, _⟩ => show (0 : ℕ) = if (1 : ℕ) = 1 then 0 else 0; rw [if_pos rfl]
    | ⟨3, _⟩ =>
      show r.val = if C = 1 then 0 else r.val
      split
      · have := r.isLt; omega
      · rfl
  exact shapeCast_apply x h₁ _ _ (by
    rw [Shape.rowMajor_val_two, Shape.rowMajor_val_four]
    show f.val * C + r.val = (((0 : ℕ) * B + f.val) * 1 + 0) * C + r.val
    ring)

end Cert.AxisMerge
-- ==== Proof.KerBodies.lean ====
/-
  What the kernel's two bodies compute, entry by entry, at the exact (extended-real) instance.

  The first body folds the weights. From the two halves of the [16, 32] reduce weights (rows 0–7: `lo`, rows 8–15: `hi`),
  the [8, 8] node weights, the [6, 8] edge weights and the three bias rows it stores
    * a [32, 8] matrix: entry (r, f) is (Σ_k lo(k, r)·wn(f, k))·c;
    * a [32, 64] matrix: eight copies of that one side by side, so entry (r, 8d + f) is its entry (r, f);
    * a [32, 48] matrix: each column of (Σ_k hi(k, r)·we(e, k))·c repeated eight times, so entry (r, 8e + d) is that at (r, e);
    * a [32, 1] column: entry r is Σ_k bn(k)·lo(k, r) + c'·Σ_k be(k)·hi(k, r) + br(r).
  The second body, on a tile of 16384 nodes laid feature-major, adds three matrix products and the column:
  entry (r, q) is Σ_k a(r,k)·x(k,q) + Σ_k b(r,k)·y(k,q) + Σ_k e(r,k)·z(k,q) + col(r).
-/
import proofs.«100832_g2000702531665673_pallasbulk_716_14_alg».proof.Proof.Gen.KernelIdeal.Skeleton
import proofs.«100832_g2000702531665673_pallasbulk_716_14_alg».proof.Proof.Spec
import proofs.«100832_g2000702531665673_pallasbulk_716_14_alg».proof.Proof.LibLeadDot
import proofs.«100832_g2000702531665673_pallasbulk_716_14_alg».proof.Proof.LibPlainLayers
import proofs.«100832_g2000702531665673_pallasbulk_716_14_alg».proof.Proof.LibAxisMerge
import Idealize.ShloMosaic.Lib.Pipeline.Value
import Idealize.ShloMosaic.Lib.ValueLayout

noncomputable section

open scoped BigOperators

namespace Cert.KernelIdeal.Bodies

open Cert.KernelIdeal Cert.KernelIdeal.Gen Cert.MeanPool
open Idealize.ShloMosaic Idealize.ShloMosaic.ValueIdx

/-! ## The weight-folding body -/

/-- The folded node weights at (r, f). -/
theorem nodeW_apply (v0 : Vec Ideal S8x32 .f32) (v2 : Vec Ideal S8x8 .f32) (r : Fin 32) (f : Fin 8) :
    k0_pay1 (F := Ideal) v0 v2 (ix2 r f) = (∑ k : Fin 8, v0 (ix2 k r) * v2 (ix2 f k)) * c9 := by
  unfold k0_pay1
  exact congrArg (· * c9) (Cert.LeadDot.leadMM_of_eq _ rfl none v0 v2 r f)

/-- Eight copies side by side: column 8d + f is column f. -/
theorem nodeW8_apply (v0 : Vec Ideal S8x32 .f32) (v2 : Vec Ideal S8x8 .f32) (r : Fin 32) (d f : Fin 8) :
    k0_pay2 (F := Ideal) v0 v2 (ix2 r (at64 d f)) = k0_pay1 (F := Ideal) v0 v2 (ix2 r f) := by
  unfold k0_pay2
  refine concatenate_replicate_apply (t := S32x64) (s₁ := S32x8) 1 8 (k0_pay1 (F := Ideal) v0 v2) _ rfl (ix2 r (at64 d f)) (ix2 r f) ?_ ?_
  · show f.val = (8 * d.val + f.val) % 8
    omega
  · intro b hb
    match b with
    | ⟨0, _⟩ => rfl
    | ⟨1, _⟩ => exact absurd rfl hb

/-- The folded edge weights, each column repeated eight times: column 8e + d is column e. -/
theorem edgeW8_apply (v1 : Vec Ideal S8x32 .f32) (v6 : Vec Ideal S6x8 .f32) (r : Fin 32) (e : Fin 6) (d : Fin 8) :
    k0_pay3 (F := Ideal) v1 v6 (ix2 r (at48f e d)) = (∑ k : Fin 8, v1 (ix2 k r) * v6 (ix2 e k)) * c9 := by
  unfold k0_pay3
  refine (Cert.AxisMerge.mergeLast_apply _ _ rfl r e d (at48f e d) rfl).trans ?_
  refine (broadcastTo_apply _ _ (ix3 r e d) (ix3 r e (0 : Fin 1)) fun ax => ?_).trans ?_
  · match ax with
    | ⟨0, _⟩ => show r.val = if (32 : ℕ) = 1 then 0 else r.val; rw [if_neg (by decide)]
    | ⟨1, _⟩ => show e.val = if (6 : ℕ) = 1 then 0 else e.val; rw [if_neg (by decide)]
    | ⟨2, _⟩ => show (0 : ℕ) = if (1 : ℕ) = 1 then 0 else d.val; rw [if_pos rfl]
  refine (Cert.AxisMerge.splitLast_apply _ _ rfl r e (0 : Fin 1) e (by show e.val = 1 * e.val + 0; omega)).trans ?_
  exact congrArg (· * c9) (Cert.LeadDot.leadMM_of_eq _ rfl none v1 v6 r e)

/-- The folded bias, as a column. -/
theorem biasCol_apply (v0 v1 : Vec Ideal S8x32 .f32) (v17 v19 : Vec Ideal S1x8 .f32) (v24 : Vec Ideal S1x32 .f32) (r : Fin 32) :
    k0_pay4 (F := Ideal) v0 v1 v17 v19 v24 (ix2 r (0 : Fin 1))
      = ((∑ k : Fin 8, v17 (ix2 (0 : Fin 1) k) * v0 (ix2 k r)) + c89 * ∑ k : Fin 8, v19 (ix2 (0 : Fin 1) k) * v1 (ix2 k r))
        + v24 (ix2 (0 : Fin 1) r) := by
  unfold k0_pay4
  refine (transpose_ix2_apply _ _ r (0 : Fin 1)).trans ?_
  exact congrArg₂ (· + ·)
    (congrArg₂ (· + ·) (Cert.PlainLayers.plainMM_of_eq _ rfl none v17 v0 (0 : Fin 1) r)
      (congrArg (c89 * ·) (Cert.PlainLayers.plainMM_of_eq _ rfl none v19 v1 (0 : Fin 1) r)))
    rfl

/-! ## The multiplying body -/

/-- One tile: three products and the bias column, at (r, q). -/
theorem fused_apply (a : Vec Ideal S32x8 .f32) (x : Vec Ideal S8x16384 .f32) (b : Vec Ideal S32x64 .f32) (y : Vec Ideal S64x16384 .f32)
    (e : Vec Ideal S32x48 .f32) (z : Vec Ideal S48x16384 .f32) (col : Vec Ideal S32x1 .f32) (r : Fin 32) (q : Fin 16384) :
    k1_pay1 (F := Ideal) a x b y e z col (ix2 r q)
      = (((∑ k : Fin 8, a (ix2 r k) * x (ix2 k q)) + ∑ k : Fin 64, b (ix2 r k) * y (ix2 k q)) + ∑ k : Fin 48, e (ix2 r k) * z (ix2 k q))
        + col (ix2 r (0 : Fin 1)) := by
  unfold k1_pay1
  refine congrArg₂ (· + ·) (congrArg₂ (· + ·) (congrArg₂ (· + ·) ?_ ?_) ?_) ?_
  · refine (Cert.PlainLayers.plainMM_of_eq _ rfl none _ _ r q).trans ?_
    rw [shapeCast_self, shapeCast_self]
  · refine (Cert.PlainLayers.plainMM_of_eq _ rfl none _ _ r q).trans ?_
    rw [shapeCast_self, shapeCast_self]
  · refine (Cert.PlainLayers.plainMM_of_eq _ rfl none _ _ r q).trans ?_
    rw [shapeCast_self, shapeCast_self]
  · exact (Cert.Columns.broadcastTo_a1_ab_apply _ _ r q).trans (congrFun (shapeCast_self col _) _)

end Cert.KernelIdeal.Bodies

end
-- ==== Proof.KerArrays.lean ====
/-
  The kernel's two regions as whole-array functions of the buffers each region finds, at the exact instance.

  Region 1 (eight points, a [32, 16384] tile of the [32, 131072] result each): the result array ends holding, at (r, n),
      Σ_k a(r,k)·X(k,n) + Σ_k b(r,k)·Y(k,n) + Σ_k e(r,k)·Z(k,n) + col(r)
  of the seven arrays the region reads, whole: point t reads columns 16384·t … of X, Y, Z and all of a, b, e, col, and
  writes columns 16384·t … of the result; the eight tiles cover the array.
  Region 0 (no grid: one point, every block the whole array): each of its four result arrays ends holding what the body
  stores, as a function of the six whole argument arrays.
-/
import proofs.«100832_g2000702531665673_pallasbulk_716_14_alg».proof.Proof.Gen.KernelIdeal.Frame
import proofs.«100832_g2000702531665673_pallasbulk_716_14_alg».proof.Proof.KerBodies
import Idealize.ShloMosaic.Lib.Pipeline.Value

set_option maxRecDepth 16384

noncomputable section

open scoped BigOperators

namespace Cert.KernelIdeal.Arrays

open Cert.KernelIdeal Cert.KernelIdeal.Gen Cert.KernelIdeal.Bodies Cert.MeanPool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- Three products and a column, at row r and node n, of whole arrays. -/
def fusedAt (A : S32x8.Idx → EReal) (X : S8x131072.Idx → EReal) (B : S32x64.Idx → EReal) (Y : S64x131072.Idx → EReal)
    (E : S32x48.Idx → EReal) (Z : S48x131072.Idx → EReal) (C : S32x1.Idx → EReal) (r : Fin 32) (n : Fin 131072) : EReal :=
  (((∑ k : Fin 8, A (ix2 r k) * X (ix2 k n)) + ∑ k : Fin 64, B (ix2 r k) * Y (ix2 k n)) + ∑ k : Fin 48, E (ix2 r k) * Z (ix2 k n))
    + C (ix2 r (0 : Fin 1))

def fusedAll (A : S32x8.Idx → EReal) (X : S8x131072.Idx → EReal) (B : S32x64.Idx → EReal) (Y : S64x131072.Idx → EReal)
    (E : S32x48.Idx → EReal) (Z : S48x131072.Idx → EReal) (C : S32x1.Idx → EReal) : S32x131072.Idx → EReal :=
  fun i => fusedAt A X B Y E Z C (i 0) (i 1)

/-- Where each window's block sits at point t: the three feature arrays and the result move along the node axis with
    the point, the four folded arrays stay. -/
theorem idx1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = t.val :=
  (by decide +kernel : ∀ t : Fin grid1.N, _)

/-- What point t writes back is tile t of the whole-array function. -/
theorem flushed1_eq (c : Dev nD) (t : Fin cfg1.N) :
    (dat1 V c).flushed 7 t = ((cfg1.win 7).blk t).view.read (Elt Ideal)
      (fusedAll (V c main_v0_0) (V c main_v1) (V c main_v0_1) (V c main_v3) (V c main_v0_2) (V c main_v5) (V c main_v0_3)) := by
  show (cfg1.win 7).cut (grid1.coords t) ((dat1 V c).after 7 t) = _
  rw [after1_7]
  unfold out1_7
  rw [View.canon_unit_zero hz]
  simp only [View.ld_unit_zero (S := S32x8) hz, View.ld_unit_zero (S := S8x16384) hz, View.ld_unit_zero (S := S32x64) hz, View.ld_unit_zero (S := S64x16384) hz, View.ld_unit_zero (S := S32x48) hz, View.ld_unit_zero (S := S48x16384) hz, View.ld_unit_zero (S := S32x1) hz]
  obtain ⟨e00, e01, e10, e11, e20, e21, e30, e31, e40, e41, e50, e51, e60, e61, e70, e71⟩ := idx1 t
  have ht : t.val < 8 := lt_of_lt_of_eq t.isLt N_1
  funext j
  obtain ⟨r, q, rfl⟩ : ∃ (r : Fin 32) (q : Fin 16384), j = ix2 r q := ⟨j 0, j 1, eq_ix2 j⟩
  have hq : 16384 * t.val + q.val < 131072 := by have := q.isLt; omega
  have hout : ((cfg1.win 7).blk t).view.emb (ix2 r q) = ix2 r (⟨16384 * t.val + q.val, hq⟩ : Fin 131072) := by
    funext a; apply Fin.ext
    match a with
    | ⟨0, _⟩ => show win1_7.index t (0 : Fin 2) * 32 + 1 * r.val = r.val; omega
    | ⟨1, _⟩ => show win1_7.index t (1 : Fin 2) * 16384 + 1 * q.val = 16384 * t.val + q.val; omega
  have hA : ∀ k : Fin 8, iblk1 V c 3 t (ix2 r k) = V c main_v0_0 (ix2 r k) := fun k => by
    show V c main_v0_0 (((cfg1.win 3).blk t).view.emb (ix2 r k)) = _
    refine congrArg _ (funext fun a => Fin.ext ?_)
    match a with
    | ⟨0, _⟩ => show win1_3.index t (0 : Fin 2) * 32 + 1 * r.val = r.val; omega
    | ⟨1, _⟩ => show win1_3.index t (1 : Fin 2) * 8 + 1 * k.val = k.val; omega
  have hB : ∀ k : Fin 64, iblk1 V c 4 t (ix2 r k) = V c main_v0_1 (ix2 r k) := fun k => by
    show V c main_v0_1 (((cfg1.win 4).blk t).view.emb (ix2 r k)) = _
    refine congrArg _ (funext fun a => Fin.ext ?_)
    match a with
    | ⟨0, _⟩ => show win1_4.index t (0 : Fin 2) * 32 + 1 * r.val = r.val; omega
    | ⟨1, _⟩ => show win1_4.index t (1 : Fin 2) * 64 + 1 * k.val = k.val; omega
  have hE : ∀ k : Fin 48, iblk1 V c 5 t (ix2 r k) = V c main_v0_2 (ix2 r k) := fun k => by
    show V c main_v0_2 (((cfg1.win 5).blk t).view.emb (ix2 r k)) = _
    refine congrArg _ (funext fun a => Fin.ext ?_)
    match a with
    | ⟨0, _⟩ => show win1_5.index t (0 : Fin 2) * 32 + 1 * r.val = r.val; omega
    | ⟨1, _⟩ => show win1_5.index t (1 : Fin 2) * 48 + 1 * k.val = k.val; omega
  have hC : iblk1 V c 6 t (ix2 r (0 : Fin 1)) = V c main_v0_3 (ix2 r (0 : Fin 1)) := by
    show V c main_v0_3 (((cfg1.win 6).blk t).view.emb (ix2 r (0 : Fin 1))) = _
    refine congrArg _ (funext fun a => Fin.ext ?_)
    match a with
    | ⟨0, _⟩ => show win1_6.index t (0 : Fin 2) * 32 + 1 * r.val = r.val; omega
    | ⟨1, _⟩ => show win1_6.index t (1 : Fin 2) * 1 + 1 * 0 = 0; omega
  have hX : ∀ k : Fin 8, iblk1 V c 0 t (ix2 k q) = V c main_v1 (ix2 k (⟨16384 * t.val + q.val, hq⟩ : Fin 131072)) := fun k => by
    show V c main_v1 (((cfg1.win 0).blk t).view.emb (ix2 k q)) = _
    refine congrArg _ (funext fun a => Fin.ext ?_)
    match a with
    | ⟨0, _⟩ => show win1_0.index t (0 : Fin 2) * 8 + 1 * k.val = k.val; omega
    | ⟨1, _⟩ => show win1_0.index t (1 : Fin 2) * 16384 + 1 * q.val = 16384 * t.val + q.val; omega
  have hY : ∀ k : Fin 64, iblk1 V c 1 t (ix2 k q) = V c main_v3 (ix2 k (⟨16384 * t.val + q.val, hq⟩ : Fin 131072)) := fun k => by
    show V c main_v3 (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 16384 + 1 * q.val = 16384 * t.val + q.val; omega
  have hZ : ∀ k : Fin 48, iblk1 V c 2 t (ix2 k q) = V c main_v5 (ix2 k (⟨16384 * t.val + q.val, hq⟩ : Fin 131072)) := fun k => by
    show V c main_v5 (((cfg1.win 2).blk t).view.emb (ix2 k q)) = _
    refine congrArg _ (funext fun a => Fin.ext ?_)
    match a with
    | ⟨0, _⟩ => show win1_2.index t (0 : Fin 2) * 48 + 1 * k.val = k.val; omega
    | ⟨1, _⟩ => show win1_2.index t (1 : Fin 2) * 16384 + 1 * q.val = 16384 * t.val + q.val; omega
  show k1_pay1 (F := Ideal) (iblk1 V c 3 t) (iblk1 V c 0 t) (iblk1 V c 4 t) (iblk1 V c 1 t) (iblk1 V c 5 t) (iblk1 V c 2 t) (iblk1 V c 6 t) (ix2 r q)
    = fusedAll (V c main_v0_0) (V c main_v1) (V c main_v0_1) (V c main_v3) (V c main_v0_2) (V c main_v5) (V c main_v0_3)
        (((cfg1.win 7).blk t).view.emb (ix2 r q))
  rw [hout]
  refine (fused_apply (iblk1 V c 3 t) (iblk1 V c 0 t) (iblk1 V c 4 t) (iblk1 V c 1 t) (iblk1 V c 5 t) (iblk1 V c 2 t) (iblk1 V c 6 t) r q).trans ?_
  show _ = fusedAt (V c main_v0_0) (V c main_v1) (V c main_v0_1) (V c main_v3) (V c main_v0_2) (V c main_v5) (V c main_v0_3) r ⟨16384 * t.val + q.val, hq⟩
  unfold fusedAt
  exact congrArg₂ (· + ·)
    (congrArg₂ (· + ·)
      (congrArg₂ (· + ·) (Finset.sum_congr rfl fun k _ => congrArg₂ (· * ·) (hA k) (hX k))
        (Finset.sum_congr rfl fun k _ => congrArg₂ (· * ·) (hB k) (hY k)))
      (Finset.sum_congr rfl fun k _ => congrArg₂ (· * ·) (hE k) (hZ k)))
    hC

/-- An index of the result is in point t's tile iff each coordinate is in the tile's range. -/
theorem mem_blk1 (t : Fin cfg1.N) (i : S32x131072.Idx) :
    i ∈ ((cfg1.win 7).blk t).view.set ↔ ∀ a : Fin 2, win1_7.index t a * S32x16384.size a ≤ (i a).val ∧ (i a).val < win1_7.index t a * S32x16384.size a + S32x16384.size a := by
  show i ∈ ((View.whole main_v6).slice (win1_7.rect t)).set ↔ _
  rw [View.set_slice_whole, Rect.mem_set_unit]
  exact Iff.rfl

/-- THE RESULT ARRAY of region 1: the whole-array function of the seven arrays it reads. -/
theorem final1 (c : Dev nD) : (dat1 V c).arrAt 7 cfg1.N
    = fusedAll (V c main_v0_0) (V c main_v1) (V c main_v0_1) (V c main_v3) (V c main_v0_2) (V c main_v5) (V c main_v0_3) :=
  (dat1 V c).arrAt_eq_of_cover 7 _ (fun t _ => flushed1_eq V c t) (fun i => by
    have h0 : (i 0).val < 32 := (i 0).isLt
    have h1 : (i 1).val < 131072 := (i 1).isLt
    have ht : (i 1).val / 16384 < cfg1.N := by rw [show cfg1.N = 8 from N_1]; omega
    refine ⟨⟨(i 1).val / 16384, ht⟩, flush1_7 _, ?_⟩
    obtain ⟨e00, e01, e10, e11, e20, e21, e30, e31, e40, e41, e50, e51, e60, e61, e70, e71⟩ := idx1 ⟨(i 1).val / 16384, ht⟩
    rw [mem_blk1]
    intro a
    match a with
    | ⟨0, _⟩ => show win1_7.index ⟨(i 1).val / 16384, ht⟩ (0 : Fin 2) * 32 ≤ (i 0).val ∧ (i 0).val < win1_7.index ⟨(i 1).val / 16384, ht⟩ (0 : Fin 2) * 32 + 32; omega
    | ⟨1, _⟩ =>
      show win1_7.index ⟨(i 1).val / 16384, ht⟩ (1 : Fin 2) * 16384 ≤ (i 1).val ∧ (i 1).val < win1_7.index ⟨(i 1).val / 16384, ht⟩ (1 : Fin 2) * 16384 + 16384
      rw [e71]; show (i 1).val / 16384 * 16384 ≤ (i 1).val ∧ (i 1).val < (i 1).val / 16384 * 16384 + 16384; omega)

/-! ## Region 0: no grid, every block the whole array -/

theorem in0_0 (c : Dev nD) (t : Fin cfg0.N) : iblk0 V c 0 t = V c main_arg3 := by
  funext y
  show V c main_arg3 (((cfg0.win 0).blk t).view.emb y) = V c main_arg3 y
  refine congrArg _ (funext fun a => Fin.ext ?_)
  match a with
  | ⟨0, _⟩ => show (0 : ℕ) * 8 + 1 * (y 0).val = (y 0).val; omega
  | ⟨1, _⟩ => show (0 : ℕ) * 8 + 1 * (y 1).val = (y 1).val; omega
theorem in0_1 (c : Dev nD) (t : Fin cfg0.N) : iblk0 V c 1 t = V c main_arg5 := by
  funext y
  show V c main_arg5 (((cfg0.win 1).blk t).view.emb y) = V c main_arg5 y
  refine congrArg _ (funext fun a => Fin.ext ?_)
  match a with
  | ⟨0, _⟩ => show (0 : ℕ) * 6 + 1 * (y 0).val = (y 0).val; omega
  | ⟨1, _⟩ => show (0 : ℕ) * 8 + 1 * (y 1).val = (y 1).val; omega
theorem in0_2 (c : Dev nD) (t : Fin cfg0.N) : iblk0 V c 2 t = V c main_arg7 := by
  funext y
  show V c main_arg7 (((cfg0.win 2).blk t).view.emb y) = V c main_arg7 y
  refine congrArg _ (funext fun a => Fin.ext ?_)
  match a with
  | ⟨0, _⟩ => show (0 : ℕ) * 16 + 1 * (y 0).val = (y 0).val; omega
  | ⟨1, _⟩ => show (0 : ℕ) * 32 + 1 * (y 1).val = (y 1).val; omega
theorem in0_3 (c : Dev nD) (t : Fin cfg0.N) : iblk0 V c 3 t = V c main_arg4 := by
  funext y
  show V c main_arg4 (((cfg0.win 3).blk t).view.emb y) = V c main_arg4 y
  refine congrArg _ (funext fun a => Fin.ext ?_)
  match a with
  | ⟨0, _⟩ => show (0 : ℕ) * 1 + 1 * (y 0).val = (y 0).val; omega
  | ⟨1, _⟩ => show (0 : ℕ) * 8 + 1 * (y 1).val = (y 1).val; omega
theorem in0_4 (c : Dev nD) (t : Fin cfg0.N) : iblk0 V c 4 t = V c main_arg6 := by
  funext y
  show V c main_arg6 (((cfg0.win 4).blk t).view.emb y) = V c main_arg6 y
  refine congrArg _ (funext fun a => Fin.ext ?_)
  match a with
  | ⟨0, _⟩ => show (0 : ℕ) * 1 + 1 * (y 0).val = (y 0).val; omega
  | ⟨1, _⟩ => show (0 : ℕ) * 8 + 1 * (y 1).val = (y 1).val; omega
theorem in0_5 (c : Dev nD) (t : Fin cfg0.N) : iblk0 V c 5 t = V c main_arg8 := by
  funext y
  show V c main_arg8 (((cfg0.win 5).blk t).view.emb y) = V c main_arg8 y
  refine congrArg _ (funext fun a => Fin.ext ?_)
  match a with
  | ⟨0, _⟩ => show (0 : ℕ) * 1 + 1 * (y 0).val = (y 0).val; omega
  | ⟨1, _⟩ => show (0 : ℕ) * 32 + 1 * (y 1).val = (y 1).val; omega

theorem mem_blk0_6 (t : Fin cfg0.N) (i : S32x8.Idx) :
    i ∈ ((cfg0.win 6).blk t).view.set ↔ ∀ a : Fin 2, win0_6.index t a * S32x8.size a ≤ (i a).val ∧ (i a).val < win0_6.index t a * S32x8.size a + S32x8.size a := by
  show i ∈ ((View.whole main_v0_0).slice (win0_6.rect t)).set ↔ _
  rw [View.set_slice_whole, Rect.mem_set_unit]
  exact Iff.rfl

/-- Region 0's result array 0: what the body stores, of the whole argument arrays. -/
theorem final0_6 (c : Dev nD) : (dat0 V c).arrAt 6 cfg0.N
    = out0_6 (V c main_arg3) (V c main_arg5) (V c main_arg7) (V c main_arg4) (V c main_arg6) (V c main_arg8) :=
  (dat0 V c).arrAt_eq_of_cover 6 _ (fun t _ => by
    show (cfg0.win 6).cut (grid0.coords t) ((dat0 V c).after 6 t) = _
    rw [after0_6, in0_0, in0_1, in0_2, in0_3, in0_4, in0_5]
    funext y
    show out0_6 (V c main_arg3) (V c main_arg5) (V c main_arg7) (V c main_arg4) (V c main_arg6) (V c main_arg8) y
      = out0_6 (V c main_arg3) (V c main_arg5) (V c main_arg7) (V c main_arg4) (V c main_arg6) (V c main_arg8) (((cfg0.win 6).blk t).view.emb y)
    refine congrArg _ (funext fun a => Fin.ext ?_)
    match a with
    | ⟨0, _⟩ => show (y 0).val = (0 : ℕ) * 32 + 1 * (y 0).val; omega
    | ⟨1, _⟩ => show (y 1).val = (0 : ℕ) * 8 + 1 * (y 1).val; omega)
    (fun i => by
      have h0 : (i 0).val < 32 := (i 0).isLt
      have h1 : (i 1).val < 8 := (i 1).isLt
      refine ⟨⟨0, by rw [show cfg0.N = 1 from N_0]; exact Nat.one_pos⟩, flush0_6 _, ?_⟩
      rw [mem_blk0_6]
      intro a
      match a with
      | ⟨0, _⟩ => show (0 : ℕ) * 32 ≤ (i 0).val ∧ (i 0).val < (0 : ℕ) * 32 + 32; omega
      | ⟨1, _⟩ => show (0 : ℕ) * 8 ≤ (i 1).val ∧ (i 1).val < (0 : ℕ) * 8 + 8; omega)

theorem mem_blk0_7 (t : Fin cfg0.N) (i : S32x64.Idx) :
    i ∈ ((cfg0.win 7).blk t).view.set ↔ ∀ a : Fin 2, win0_7.index t a * S32x64.size a ≤ (i a).val ∧ (i a).val < win0_7.index t a * S32x64.size a + S32x64.size a := by
  show i ∈ ((View.whole main_v0_1).slice (win0_7.rect t)).set ↔ _
  rw [View.set_slice_whole, Rect.mem_set_unit]
  exact Iff.rfl

/-- Region 0's result array 1: what the body stores, of the whole argument arrays. -/
theorem final0_7 (c : Dev nD) : (dat0 V c).arrAt 7 cfg0.N
    = out0_7 (V c main_arg3) (V c main_arg5) (V c main_arg7) (V c main_arg4) (V c main_arg6) (V c main_arg8) :=
  (dat0 V c).arrAt_eq_of_cover 7 _ (fun t _ => by
    show (cfg0.win 7).cut (grid0.coords t) ((dat0 V c).after 7 t) = _
    rw [after0_7, in0_0, in0_1, in0_2, in0_3, in0_4, in0_5]
    funext y
    show out0_7 (V c main_arg3) (V c main_arg5) (V c main_arg7) (V c main_arg4) (V c main_arg6) (V c main_arg8) y
      = out0_7 (V c main_arg3) (V c main_arg5) (V c main_arg7) (V c main_arg4) (V c main_arg6) (V c main_arg8) (((cfg0.win 7).blk t).view.emb y)
    refine congrArg _ (funext fun a => Fin.ext ?_)
    match a with
    | ⟨0, _⟩ => show (y 0).val = (0 : ℕ) * 32 + 1 * (y 0).val; omega
    | ⟨1, _⟩ => show (y 1).val = (0 : ℕ) * 64 + 1 * (y 1).val; omega)
    (fun i => by
      have h0 : (i 0).val < 32 := (i 0).isLt
      have h1 : (i 1).val < 64 := (i 1).isLt
      refine ⟨⟨0, by rw [show cfg0.N = 1 from N_0]; exact Nat.one_pos⟩, flush0_7 _, ?_⟩
      rw [mem_blk0_7]
      intro a
      match a with
      | ⟨0, _⟩ => show (0 : ℕ) * 32 ≤ (i 0).val ∧ (i 0).val < (0 : ℕ) * 32 + 32; omega
      | ⟨1, _⟩ => show (0 : ℕ) * 64 ≤ (i 1).val ∧ (i 1).val < (0 : ℕ) * 64 + 64; omega)

theorem mem_blk0_8 (t : Fin cfg0.N) (i : S32x48.Idx) :
    i ∈ ((cfg0.win 8).blk t).view.set ↔ ∀ a : Fin 2, win0_8.index t a * S32x48.size a ≤ (i a).val ∧ (i a).val < win0_8.index t a * S32x48.size a + S32x48.size a := by
  show i ∈ ((View.whole main_v0_2).slice (win0_8.rect t)).set ↔ _
  rw [View.set_slice_whole, Rect.mem_set_unit]
  exact Iff.rfl

/-- Region 0's result array 2: what the body stores, of the whole argument arrays. -/
theorem final0_8 (c : Dev nD) : (dat0 V c).arrAt 8 cfg0.N
    = out0_8 (V c main_arg3) (V c main_arg5) (V c main_arg7) (V c main_arg4) (V c main_arg6) (V c main_arg8) :=
  (dat0 V c).arrAt_eq_of_cover 8 _ (fun t _ => by
    show (cfg0.win 8).cut (grid0.coords t) ((dat0 V c).after 8 t) = _
    rw [after0_8, in0_0, in0_1, in0_2, in0_3, in0_4, in0_5]
    funext y
    show out0_8 (V c main_arg3) (V c main_arg5) (V c main_arg7) (V c main_arg4) (V c main_arg6) (V c main_arg8) y
      = out0_8 (V c main_arg3) (V c main_arg5) (V c main_arg7) (V c main_arg4) (V c main_arg6) (V c main_arg8) (((cfg0.win 8).blk t).view.emb y)
    refine congrArg _ (funext fun a => Fin.ext ?_)
    match a with
    | ⟨0, _⟩ => show (y 0).val = (0 : ℕ) * 32 + 1 * (y 0).val; omega
    | ⟨1, _⟩ => show (y 1).val = (0 : ℕ) * 48 + 1 * (y 1).val; omega)
    (fun i => by
      have h0 : (i 0).val < 32 := (i 0).isLt
      have h1 : (i 1).val < 48 := (i 1).isLt
      refine ⟨⟨0, by rw [show cfg0.N = 1 from N_0]; exact Nat.one_pos⟩, flush0_8 _, ?_⟩
      rw [mem_blk0_8]
      intro a
      match a with
      | ⟨0, _⟩ => show (0 : ℕ) * 32 ≤ (i 0).val ∧ (i 0).val < (0 : ℕ) * 32 + 32; omega
      | ⟨1, _⟩ => show (0 : ℕ) * 48 ≤ (i 1).val ∧ (i 1).val < (0 : ℕ) * 48 + 48; omega)

theorem mem_blk0_9 (t : Fin cfg0.N) (i : S32x1.Idx) :
    i ∈ ((cfg0.win 9).blk t).view.set ↔ ∀ a : Fin 2, win0_9.index t a * S32x1.size a ≤ (i a).val ∧ (i a).val < win0_9.index t a * S32x1.size a + S32x1.size a := by
  show i ∈ ((View.whole main_v0_3).slice (win0_9.rect t)).set ↔ _
  rw [View.set_slice_whole, Rect.mem_set_unit]
  exact Iff.rfl

/-- Region 0's result array 3: what the body stores, of the whole argument arrays. -/
theorem final0_9 (c : Dev nD) : (dat0 V c).arrAt 9 cfg0.N
    = out0_9 (V c main_arg3) (V c main_arg5) (V c main_arg7) (V c main_arg4) (V c main_arg6) (V c main_arg8) :=
  (dat0 V c).arrAt_eq_of_cover 9 _ (fun t _ => by
    show (cfg0.win 9).cut (grid0.coords t) ((dat0 V c).after 9 t) = _
    rw [after0_9, in0_0, in0_1, in0_2, in0_3, in0_4, in0_5]
    funext y
    show out0_9 (V c main_arg3) (V c main_arg5) (V c main_arg7) (V c main_arg4) (V c main_arg6) (V c main_arg8) y
      = out0_9 (V c main_arg3) (V c main_arg5) (V c main_arg7) (V c main_arg4) (V c main_arg6) (V c main_arg8) (((cfg0.win 9).blk t).view.emb y)
    refine congrArg _ (funext fun a => Fin.ext ?_)
    match a with
    | ⟨0, _⟩ => show (y 0).val = (0 : ℕ) * 32 + 1 * (y 0).val; omega
    | ⟨1, _⟩ => show (y 1).val = (0 : ℕ) * 1 + 1 * (y 1).val; omega)
    (fun i => by
      have h0 : (i 0).val < 32 := (i 0).isLt
      have h1 : (i 1).val < 1 := (i 1).isLt
      refine ⟨⟨0, by rw [show cfg0.N = 1 from N_0]; exact Nat.one_pos⟩, flush0_9 _, ?_⟩
      rw [mem_blk0_9]
      intro a
      match a with
      | ⟨0, _⟩ => show (0 : ℕ) * 32 ≤ (i 0).val ∧ (i 0).val < (0 : ℕ) * 32 + 32; omega
      | ⟨1, _⟩ => show (0 : ℕ) * 1 ≤ (i 1).val ∧ (i 1).val < (0 : ℕ) * 1 + 1; omega)

end Cert.KernelIdeal.Arrays

end
-- ==== Proof.KerFolded.lean ====
/-
  The four arrays the weight-folding region leaves, entry by entry, as the folded weights of the layer.

  With wn the node weights, we the edge weights, wr the reduce weights and bn, be, br the biases:
    * the [32, 8] array at (r, f) is the folded node weight N(f, r);
    * the [32, 64] array at (r, 8d + f) is N(f, r) again;
    * the [32, 48] array at (r, 8e + d) is the folded edge weight E(e, r);
    * the [32, 1] column at r is the folded bias B(r).
  The body reads the two halves of wr through two [8, 32] rectangles of the [16, 32] buffer, at row offsets 0 and 8.
-/
import proofs.«100832_g2000702531665673_pallasbulk_716_14_alg».proof.Proof.Gen.KernelIdeal.Frame
import proofs.«100832_g2000702531665673_pallasbulk_716_14_alg».proof.Proof.KerBodies
import Idealize.ShloMosaic.Lib.Pipeline.Value

set_option maxRecDepth 16384

noncomputable section

open scoped BigOperators

namespace Cert.KernelIdeal.Folded

open Cert.KernelIdeal Cert.KernelIdeal.Gen Cert.KernelIdeal.Bodies Cert.MeanPool
open Idealize.ShloMosaic Idealize.ShloMosaic.ValueIdx

theorem hz : (![0, 0] : Fin 2 → Nat) = fun _ => 0 := funext fun a => by fin_cases a <;> rfl

/-- The first [8, 32] rectangle of the reduce weights: rows 0–7. -/
theorem ld_lo (wr : Vec Ideal S16x32 .f32) (k : Fin 8) (r : Fin 32) : View.ld wr r0_0 (ix2 k r) = wr (ix2 (lo k) r) :=
  congrArg wr (funext fun a => Fin.ext (by
    match a with
    | ⟨0, _⟩ => show 0 + 1 * k.val = k.val; omega
    | ⟨1, _⟩ => show 0 + 1 * r.val = r.val; omega))

/-- The second: rows 8–15. -/
theorem ld_hi (wr : Vec Ideal S16x32 .f32) (k : Fin 8) (r : Fin 32) : View.ld wr r0_1 (ix2 k r) = wr (ix2 (hi k) r) :=
  congrArg wr (funext fun a => Fin.ext (by
    match a with
    | ⟨0, _⟩ => show 8 + 1 * k.val = 8 + k.val; omega
    | ⟨1, _⟩ => show 0 + 1 * r.val = r.val; omega))

variable (wn : Vec Ideal S8x8 .f32) (we : Vec Ideal S6x8 .f32) (wr : Vec Ideal S16x32 .f32) (bn be : Vec Ideal S1x8 .f32) (br : Vec Ideal S1x32 .f32)

theorem node_entry (r : Fin 32) (f : Fin 8) :
    k0_pay1 (F := Ideal) (View.ld wr r0_0) (View.ld wn r0_2) (ix2 r f) = nodeFold wn wr f r := by
  refine (nodeW_apply _ _ r f).trans ?_
  exact Eq.trans (congrArg (· * c9) (Finset.sum_congr rfl fun k _ =>
    congrArg₂ (· * ·) (ld_lo wr k r) (congrFun (View.ld_unit_zero (S := S8x8) hz _ wn) (ix2 f k)))) (nodeFold_swap wn wr f r)

theorem folded_node (r : Fin 32) (f : Fin 8) : out0_6 (F := Ideal) wn we wr bn be br (ix2 r f) = nodeFold wn wr f r := by
  unfold out0_6
  rw [View.canon_unit_zero hz]
  exact node_entry wn wr r f

theorem folded_node8 (r : Fin 32) (d f : Fin 8) : out0_7 (F := Ideal) wn we wr bn be br (ix2 r (at64 d f)) = nodeFold wn wr f r := by
  unfold out0_7
  rw [View.canon_unit_zero hz]
  exact (nodeW8_apply _ _ r d f).trans (node_entry wn wr r f)

theorem folded_edge8 (r : Fin 32) (e : Fin 6) (d : Fin 8) : out0_8 (F := Ideal) wn we wr bn be br (ix2 r (at48f e d)) = edgeFold we wr e r := by
  unfold out0_8
  rw [View.canon_unit_zero hz]
  refine (edgeW8_apply _ _ r e d).trans ?_
  exact Eq.trans (congrArg (· * c9) (Finset.sum_congr rfl fun k _ =>
    congrArg₂ (· * ·) (ld_hi wr k r) (congrFun (View.ld_unit_zero (S := S6x8) hz _ we) (ix2 e k)))) (edgeFold_swap we wr e r)

theorem folded_bias (r : Fin 32) : out0_9 (F := Ideal) wn we wr bn be br (ix2 r (0 : Fin 1)) = biasFold bn be wr br r := by
  unfold out0_9
  rw [View.canon_unit_zero hz]
  refine (biasCol_apply _ _ _ _ _ r).trans ?_
  unfold biasFold
  exact congrArg₂ (· + ·)
    (congrArg₂ (· + ·)
      (Finset.sum_congr rfl fun k _ => congrArg₂ (· * ·) (congrFun (View.ld_unit_zero (S := S1x8) hz _ bn) (ix2 (0 : Fin 1) k)) (ld_lo wr k r))
      (congrArg (c89 * ·) (Finset.sum_congr rfl fun k _ =>
        congrArg₂ (· * ·) (congrFun (View.ld_unit_zero (S := S1x8) hz _ be) (ix2 (0 : Fin 1) k)) (ld_hi wr k r))))
    (congrFun (View.ld_unit_zero (S := S1x32) hz _ br) (ix2 (0 : Fin 1) r))

end Cert.KernelIdeal.Folded

end
-- ==== Proof.KerValue.lean ====
/-
  The kernel's result, entry by entry: the mean-pool layer of the nine arguments.

  Followed backwards from the result buffer: it is the transpose of region 1's [32, 131072] array; that array is three
  products and a column of the seven arrays region 1 reads; of those, four are what region 0 left (the folded weights
  and bias of the launch arguments) and three are the node features laid feature-major by the host stretch between the
  regions — x transposed, and xs and ef transposed with their two leading axes then merged, so that row 8d + f of the
  one holds xs(·, d, f) and row 8e + d of the other holds ef(·, d, e). Position by position the three products are the
  layer's three sums.
-/
import proofs.«100832_g2000702531665673_pallasbulk_716_14_alg».proof.Proof.KerArrays
import proofs.«100832_g2000702531665673_pallasbulk_716_14_alg».proof.Proof.KerFolded
import Idealize.ShloMosaic.Lib.StableHlo.Run
import Idealize.ShloMosaic.Lib.ValueLayout

set_option maxRecDepth 16384

noncomputable section

open scoped BigOperators

namespace Cert.KernelIdeal.Result

open Cert.KernelIdeal Cert.KernelIdeal.Gen Cert.KernelIdeal.Arrays Cert.KernelIdeal.Folded Cert.MeanPool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What region 1 finds -/

/-- The [32, 8] folded node weights, as region 0 left them. -/
theorem entry_v0_0 (c : Dev nD) : V2 m ρ c main_v0_0 = out0_6 (F := Ideal) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) :=
  calc V2 m ρ c main_v0_0
    _ = W1 m ρ c (Proc.devRef .tc main_v0_0) := StableHlo.after_of_forall_not_mem (b := Proc.devRef .tc main_v0_0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = (dat0 (V0 m ρ) c).arrAt 6 cfg0.N := W1_arr m ρ c 6
    _ = _ := final0_6 (V0 m ρ) c
/-- The [32, 64] array of eight copies. -/
theorem entry_v0_1 (c : Dev nD) : V2 m ρ c main_v0_1 = out0_7 (F := Ideal) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) :=
  calc V2 m ρ c main_v0_1
    _ = W1 m ρ c (Proc.devRef .tc main_v0_1) := StableHlo.after_of_forall_not_mem (b := Proc.devRef .tc main_v0_1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = (dat0 (V0 m ρ) c).arrAt 7 cfg0.N := W1_arr m ρ c 7
    _ = _ := final0_7 (V0 m ρ) c
/-- The [32, 48] folded edge weights, each column eight times. -/
theorem entry_v0_2 (c : Dev nD) : V2 m ρ c main_v0_2 = out0_8 (F := Ideal) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) :=
  calc V2 m ρ c main_v0_2
    _ = W1 m ρ c (Proc.devRef .tc main_v0_2) := StableHlo.after_of_forall_not_mem (b := Proc.devRef .tc main_v0_2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = (dat0 (V0 m ρ) c).arrAt 8 cfg0.N := W1_arr m ρ c 8
    _ = _ := final0_8 (V0 m ρ) c
/-- The [32, 1] folded bias column. -/
theorem entry_v0_3 (c : Dev nD) : V2 m ρ c main_v0_3 = out0_9 (F := Ideal) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) :=
  calc V2 m ρ c main_v0_3
    _ = W1 m ρ c (Proc.devRef .tc main_v0_3) := StableHlo.after_of_forall_not_mem (b := Proc.devRef .tc main_v0_3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = (dat0 (V0 m ρ) c).arrAt 9 cfg0.N := W1_arr m ρ c 9
    _ = _ := final0_9 (V0 m ρ) c

/-- The node features, transposed. -/
theorem entry_v1 (c : Dev nD) : (V2 m ρ c main_v1 : S8x131072.Idx → EReal)
    = transpose S8x131072 [1, 0] (m ((c : Thread nD τ).loc main_arg0)) transposes_S131072x8_S8x131072_1_0 := by
  show StableHlo.after hostOps1 (W1 m ρ c) (Proc.devRef .tc main_v1) = _
  after_results
  rw [W1_of_ne m ρ c main_arg0 (by decide)]

/-- The neighbours' features, node axis last, the two leading axes merged. -/
theorem entry_v3 (c : Dev nD) : (V2 m ρ c main_v3 : S64x131072.Idx → EReal)
    = shapeCast S64x131072 (transpose S8x8x131072 [1, 2, 0] (m ((c : Thread nD τ).loc main_arg1)) transposes_S131072x8x8_S8x8x131072_1_2_0)
        shapeCasts_S8x8x131072_S64x131072 := by
  show StableHlo.after hostOps1 (W1 m ρ c) (Proc.devRef .tc main_v3) = _
  after_results
  rw [W1_of_ne m ρ c main_arg1 (by decide)]
  rfl

/-- The edge features, reversed axes, the two leading axes merged. -/
theorem entry_v5 (c : Dev nD) : (V2 m ρ c main_v5 : S48x131072.Idx → EReal)
    = shapeCast S48x131072 (transpose S6x8x131072 [2, 1, 0] (m ((c : Thread nD τ).loc main_arg2)) transposes_S131072x8x6_S6x8x131072_2_1_0)
        shapeCasts_S6x8x131072_S48x131072 := by
  show StableHlo.after hostOps1 (W1 m ρ c) (Proc.devRef .tc main_v5) = _
  after_results
  rw [W1_of_ne m ρ c main_arg2 (by decide)]
  rfl

/-! ## The result -/

/-- The result buffer is region 1's array, transposed. -/
theorem result_transposed (c : Dev nD) : (W4 m ρ c (Proc.devRef .tc main_v7) : S131072x32.Idx → EReal)
    = transpose S131072x32 [1, 0] ((dat1 (V2 m ρ) c).arrAt 7 cfg1.N) transposes_S32x131072_S131072x32_1_0 := by
  show StableHlo.after hostOps2 (W3 m ρ c) (Proc.devRef .tc main_v7) = _
  after_results
  rw [W3_arr m ρ c 7]

/-- THE KERNEL'S RESULT at node n, output feature r: the layer. -/
theorem result_apply (c : Dev nD) (n : Fin 131072) (r : Fin 32) :
    (W4 m ρ c (Proc.devRef .tc main_v7) : S131072x32.Idx → EReal) (ix2 n r)
      = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n r := by
  rw [result_transposed, final1]
  refine (transpose_ix2_apply _ _ n r).trans ?_
  show fusedAt (V2 m ρ c main_v0_0) (V2 m ρ c main_v1) (V2 m ρ c main_v0_1) (V2 m ρ c main_v3) (V2 m ρ c main_v0_2) (V2 m ρ c main_v5) (V2 m ρ c main_v0_3) r n = _
  unfold fusedAt
  refine pooled_of_three _ _ _ _ _ _ _ _ _ n r _ _ _ _ _ _ _ (fun f => ?_) (fun f => ?_) (fun d f => ?_) (fun d f => ?_) (fun e d => ?_) (fun e d => ?_) ?_
  · rw [entry_v0_0]; exact folded_node _ _ _ _ _ _ r f
  · rw [entry_v1]; exact transpose_ix2_apply _ _ f n
  · rw [entry_v0_1]; exact folded_node8 _ _ _ _ _ _ r d f
  · rw [entry_v3]
    refine (Cert.AxisMerge.mergeFirst_apply _ _ d f n (at64 d f) rfl).trans ?_
    exact transpose_apply _ _ _ (ix3 d f n) (ix3 n d f) fun b => match b with | ⟨0, _⟩ => rfl | ⟨1, _⟩ => rfl | ⟨2, _⟩ => rfl
  · rw [entry_v0_2]; exact folded_edge8 _ _ _ _ _ _ r e d
  · rw [entry_v5]
    refine (Cert.AxisMerge.mergeFirst_apply _ _ e d n (at48f e d) rfl).trans ?_
    exact transpose_apply _ _ _ (ix3 e d n) (ix3 n d e) fun b => match b with | ⟨0, _⟩ => rfl | ⟨1, _⟩ => rfl | ⟨2, _⟩ => rfl
  · rw [entry_v0_3]; exact folded_bias _ _ _ _ _ _ r

/-- The result buffer as one function. -/
theorem result_eq (c : Dev nD) : (W4 m ρ c (Proc.devRef .tc main_v7) : S131072x32.Idx → EReal)
    = fun i => pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  funext i
  obtain ⟨n, r, rfl⟩ : ∃ (n : Fin 131072) (r : Fin 32), i = ix2 n r := ⟨i 0, i 1, eq_ix2 i⟩
  exact result_apply m ρ c n r

end Cert.KernelIdeal.Result

end
-- ==== Proof.RefBody.lean ====
/-
  The reference's one kernel region, point by point, at any float instance.

  The region's grid has 32 points. At point t the body reads three staging buffers — a [4096, 120] tile of the slab of
  node rows, the whole [120, 32] folded weight matrix and the [1, 32] folded bias row — and stores one [4096, 32] tile:
  the tile of rows times the weights, plus the bias row repeated down the rows. Here the contents of the TensorCore's
  buffers when the region is entered are a parameter `V`; everything is stated from it:
    * `blk`: a window's block at a point, read off its array in `V`;
    * `tileOut`: what the output's staging buffer holds after the body, as a function of the three input blocks;
    * `body_triple`: the body, run on buffers holding those blocks, leaves the inputs as they were and the output at `tileOut`;
    * `dat`: the bookkeeping of the region (arrays as entered, buffers after each point), and the obligation that the body
      meets it at every point.
-/
import proofs.«100832_g2000702531665673_pallasbulk_716_14_alg».proof.Proof.Gen.ReferenceIdeal.Launch
import proofs.«100832_g2000702531665673_pallasbulk_716_14_alg».proof.Proof.Gen.ReferenceIdeal.Skeleton
import proofs.«100832_g2000702531665673_pallasbulk_716_14_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab window's staging buffer holds the point's tile of rows at every point. -/
theorem before_slab_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The weight window's staging buffer holds the whole weight matrix at every point, though it is fetched only once. -/
theorem before_weights_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The bias window's staging buffer holds the bias row at every point, though it is fetched only once. -/
theorem before_bias_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rSlab : Rect S4096x120 := Rect.unit (s := S4096x120) ![0, 0] S4096x120.size inb_S4096x120_S4096x120_0_0
abbrev rWeights : Rect S120x32 := Rect.unit (s := S120x32) ![0, 0] S120x32.size inb_S120x32_S120x32_0_0
abbrev rBias : Rect S1x32 := Rect.unit (s := S1x32) ![0, 0] S1x32.size inb_S1x32_S1x32_0_0
abbrev rOut : Rect S4096x32 := Rect.unit (s := S4096x32) ![0, 0] S4096x32.size inb_S4096x32_S4096x32_0_0

/-- The output's staging buffer after the body: its one store, of the body's arithmetic on the three loaded blocks. -/
def tileOut (x0 : Vec F S4096x120 .f32) (x1 : Vec F S120x32 .f32) (x2 : Vec F S1x32 .f32) : Vec F S4096x32 .f32 :=
  View.canon [⟨rOut, k0_pay1 (View.ld x0 rSlab) (View.ld x1 rWeights) (View.ld x2 rBias)⟩]

/-- The one store covers the whole buffer. -/
theorem tile_cover (p0 : Vec F S4096x32 .f32) (y : S4096x32.Idx) :
    ∃ pc ∈ ([⟨rOut, p0⟩] : List (View.Piece (Elt F) S4096x32 .f32)), y ∈ pc.1.set :=
  View.cover_of_tiled [⟨rOut, p0⟩] S4096x32.size (by rfl) y

/-! ## The body's triple -/

set_option maxHeartbeats 1000000 in
/-- The body on whole staging buffers, the inputs' at contents `x0 x1 x2` and the output's at anything, runs to the
    continuation with the inputs' as they were and the output's at `tileOut x0 x1 x2`. -/
theorem body_triple (c : Dev nD) (E : Set ℕ) (i : grid0.Coords) (arg1 : Memref sig .tc .vmem S4096x120 .f32) (harg1 : arg1.IsWhole) (arg2 : Memref sig .tc .vmem S120x32 .f32) (harg2 : arg2.IsWhole) (arg3 : Memref sig .tc .vmem S1x32 .f32) (harg3 : arg3.IsWhole) (arg4 : Memref sig .tc .vmem S4096x32 .f32) (harg4 : arg4.IsWhole)
    (x0 : Vec F S4096x120 .f32) (x1 : Vec F S120x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (tileOut x0 x1 x2)) -∗ K ⟨⟩))
      ⊢ wp frame (wpE (defs₀ (F := F)) Variants.none c none) E (cc0_meanpool_kernel i arg1 harg1 arg2 harg2 arg3 harg3 arg4 harg4) K := by
  simp only [cc0_meanpool_kernel_eq_skeleton]; unfold cc0_meanpool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-! ## The region's bookkeeping -/

/-- On core `c`: the arrays as the region finds them; after the body at point `t` each input's buffer at its block and
    the output's at `tileOut` of the input blocks; the invariant is the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tileOut (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_slab (c : Dev nD) (t : Fin cfg0.N) : (dat V c).after 0 t = blk V c 0 t := by dsimp only [dat]
theorem after_weights (c : Dev nD) (t : Fin cfg0.N) : (dat V c).after 1 t = blk V c 1 t := by dsimp only [dat]
theorem after_bias (c : Dev nD) (t : Fin cfg0.N) : (dat V c).after 2 t = blk V c 2 t := by dsimp only [dat]
theorem after_out (c : Dev nD) (t : Fin cfg0.N) : (dat V c).after 3 t = tileOut (blk V c 0 t) (blk V c 1 t) (blk V c 2 t) := by dsimp only [dat]

theorem before_slab (c : Dev nD) (t : Fin cfg0.N) (d) : (dat V c).before 0 t d = blk V c 0 t :=
  before_slab_of V (dat V c) (dat_A V c 0) (after_slab V c) t d
theorem before_weights (c : Dev nD) (t : Fin cfg0.N) (d) : (dat V c).before 1 t d = blk V c 1 t :=
  before_weights_of V (dat V c) (dat_A V c 1) (after_weights V c) t d
theorem before_bias (c : Dev nD) (t : Fin cfg0.N) (d) : (dat V c).before 2 t d = blk V c 2 t :=
  before_bias_of V (dat V c) (dat_A V c 2) (after_bias V c) t d

/-! ## The body obligation at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and what the core
    owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_slab, before_weights, before_bias]
  rw [show (dat V c).Φ t.succ = (dat V c).Φ t.castSucc from rfl,
    show (dat V c).owesAt () t.succ = (dat V c).owesAt () t.castSucc from rfl,
    after_slab, after_weights, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body meets the region's bookkeeping at every point. -/
theorem body_obligation (c : Dev nD) : BodyObligation (dat (F := F) V c) (defs₀ (F := F)) Variants.none () Set.univ := fun t => by
  rw [bigSep_W0, bigSep_W0]
  exact body_at V c t

end Cert.ReferenceIdeal.Hand

end
-- ==== Proof.RefRun.lean ====
/-
  The reference's whole run, at any float instance.

  The program is a stretch of 27 host operations (they lay the node rows side by side as one [131072, 120] slab, fold the
  three weight matrices into one [120, 32] matrix and the three biases into one [1, 32] row) followed by the one kernel
  region, whose 32 points each write a [4096, 32] tile of the result. Here the buffer contents are followed through the
  two segments — at launch, after the host stretch (`W1`: the host operations' values), after the region (`W2`: the
  result array at what the 32 write-backs leave, everything else as it was) — and the run is stated with the result array
  NAMED: every weakly fair execution terminates without a fault, the result buffer ends at `W2`'s contents for it, and
  the nine argument arrays end as launched. The frame is that run with the result forgotten.
-/
import proofs.«100832_g2000702531665673_pallasbulk_716_14_alg».proof.Proof.RefBody

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: its four arrays at what the pipeline leaves (the three inputs as entered, the result at its
    write-backs folded), every other buffer as entered. -/
def W2 (c : Dev nD) : Valuation τ sig (Elt F) :=
  Pipeline.withArrays spec0 c (W1 m ρ c) fun w => (dat (V1 m ρ) c).arrAt w cfg0.N
theorem W2_arr (c : Dev nD) (w : Fin cfg0.W) :
    W2 m ρ c (Proc.devRef .tc (Pipeline.arrRef spec0 w)) = (dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit_arr (c : Dev nD) (w : Fin cfg0.W) : (dat (V1 m ρ) c).arrAt w cfg0.N = V2 m ρ c (Pipeline.arrRef spec0 w) :=
  (W2_arr m ρ c w).symm
theorem exit_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ### The arguments end as launched: no host operation writes one and the region only reads them -/

theorem exit_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl
theorem exit_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl
theorem exit_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl
theorem exit_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem exit_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl
theorem exit_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem exit_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem exit_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem exit_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

/-! ## The bookkeeping family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through both segments: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the exit contents, the generator register at some state. -/
abbrev Tₙ (c : Dev nD) : sProp 𝕄 := iprop(StableHlo.held (c : Thread nD τ) (Pipeline.ucRefs τ sig) (W2 m ρ c) ∗ ∃ r, prngReg c r)

/-! ## The region as a segment -/

set_option backward.isDefEq.respectTransparency.types false in
/-- The region over the thread state: entered from every unscoped buffer at `W1`, left at `W2`. Its arrays are split
    out of the unscoped buffers and put back at the exit contents; the generator register goes into the invariant and
    comes back; nothing is owed; the kernel has no semaphore of its own. -/
def reg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit_arr m ρ c) (exit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m ρ) () defs₀ 𝒱₀ L lv) :=
  [ .host (hseg hostOps0 hostOps0_sub hostOps0_fresh (W0 m ρ)),
    .region (reg m ρ) ]
/-- The program is the run of the two segments. -/
theorem main_run (c : Dev nD) : main (F := F) c = Pipeline.Seg.run (segs m ρ) := (main_chain c).trans (by chain_rfl)

set_option backward.isDefEq.respectTransparency.types false in
/-- THE RUN, with the result named: from any memory with zero counters every weakly fair execution terminates, nothing
    faulting; the result buffer ends at the exit contents `W2` and the nine argument arrays as launched. -/
theorem run : θ_run defs (onTc (τ := τ) (main (F := F))) ⟨m, fun _ => 0, ρ⟩ (fun r => ∀ c : Dev nD,
      r.2.mem ((c.tc : Thread nD τ).loc main_v24) = W2 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      dsimp only [Pipeline.Seg.post, reg]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v24 (by decide)),
       (h c _ (mem_uc main_arg0 (by decide))).trans (exit_main_arg0 m ρ c),
       (h c _ (mem_uc main_arg1 (by decide))).trans (exit_main_arg1 m ρ c),
       (h c _ (mem_uc main_arg2 (by decide))).trans (exit_main_arg2 m ρ c),
       (h c _ (mem_uc main_arg3 (by decide))).trans (exit_main_arg3 m ρ c),
       (h c _ (mem_uc main_arg4 (by decide))).trans (exit_main_arg4 m ρ c),
       (h c _ (mem_uc main_arg5 (by decide))).trans (exit_main_arg5 m ρ c),
       (h c _ (mem_uc main_arg6 (by decide))).trans (exit_main_arg6 m ρ c),
       (h c _ (mem_uc main_arg7 (by decide))).trans (exit_main_arg7 m ρ c),
       (h c _ (mem_uc main_arg8 (by decide))).trans (exit_main_arg8 m ρ c)⟩)

end Cert.ReferenceIdeal.Hand

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«100832_g2000702531665673_pallasbulk_716_14_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.RefStages.lean ====
/-
  What the reference's host stretch builds, entry by entry, at the exact (extended-real) instance.

  * the slab [131072, 120]: row n is x(n, ·) followed by xs(n, ·, ·) flattened neighbour-major (position 8 + 8d + f)
    and ef(n, ·, ·) flattened neighbour-major (position 72 + 6d + e);
  * the folded weight matrix [120, 32]: the folded node weights N(·, r) tiled nine times down rows 0–71 (row 8t + f is
    N(f, r)) above the folded edge weights E(·, r) tiled eight times (row 72 + 6t + e is E(e, r));
  * the folded bias row [1, 32].
  The two halves of the [16, 32] reduce weights are cut out by slices at row offsets 0 and 8.
-/
import proofs.«100832_g2000702531665673_pallasbulk_716_14_alg».proof.Proof.Gen.ReferenceIdeal
import proofs.«100832_g2000702531665673_pallasbulk_716_14_alg».proof.Proof.Spec
import proofs.«100832_g2000702531665673_pallasbulk_716_14_alg».proof.Proof.LibGraphConv
import proofs.«100832_g2000702531665673_pallasbulk_716_14_alg».proof.Proof.LibAxisMerge
import Idealize.ShloMosaic.Lib.Pipeline.Value
import Idealize.ShloMosaic.Lib.ValueLayout
import Idealize.ShloMosaic.Lib.IdealHost

noncomputable section

open scoped BigOperators

namespace Cert.ReferenceIdeal.Stages

open Cert.ReferenceIdeal Cert.ReferenceIdeal.Gen Cert.MeanPool
open Idealize.ShloMosaic Idealize.ShloMosaic.ValueIdx

/-! ## The slab -/

def slabOf (a0 : FVec Ideal S131072x8 .f32) (a1 : FVec Ideal S131072x8x8 .f32) (a2 : FVec Ideal S131072x8x6 .f32) : FVec Ideal S131072x120 .f32 :=
  concatenate S131072x120 1 [⟨S131072x8, a0⟩, ⟨S131072x64, shapeCast S131072x64 a1 shapeCasts_S131072x8x8_S131072x64⟩,
    ⟨S131072x48, shapeCast S131072x48 a2 shapeCasts_S131072x8x6_S131072x48⟩] concatenates_S131072x8_S131072x64_S131072x48_S131072x120_d1

variable (a0 : FVec Ideal S131072x8 .f32) (a1 : FVec Ideal S131072x8x8 .f32) (a2 : FVec Ideal S131072x8x6 .f32)

theorem slab_x (n : Fin 131072) (f : Fin 8) : slabOf a0 a1 a2 (ix2 n (slabX f)) = a0 (ix2 n f) := by
  unfold slabOf
  refine concatenate_apply_piece (t := S131072x120) 1 _ _ (ix2 n (slabX f)) 0 ?_ S131072x8 a0 rfl rfl 0 rfl (ix2 n f)
    (fun b hb => match b with | ⟨0, _⟩ => rfl | ⟨1, _⟩ => absurd rfl hb) (by show 0 + f.val = f.val; omega)
  show 0 < 3; omega

theorem slab_s (n : Fin 131072) (d f : Fin 8) : slabOf a0 a1 a2 (ix2 n (slabS (at64 d f))) = a1 (ix3 n d f) := by
  unfold slabOf
  refine (concatenate_apply_piece (t := S131072x120) 1 _ _ (ix2 n (slabS (at64 d f))) 1 ?_ S131072x64 _ rfl rfl 8 rfl (ix2 n (at64 d f))
    (fun b hb => match b with | ⟨0, _⟩ => rfl | ⟨1, _⟩ => absurd rfl hb) rfl).trans ?_
  · show 1 < 3; omega
  · exact Cert.AxisMerge.mergeLast_apply a1 _ rfl n d f (at64 d f) rfl

theorem slab_e (n : Fin 131072) (d : Fin 8) (e : Fin 6) : slabOf a0 a1 a2 (ix2 n (slabE (at48n d e))) = a2 (ix3 n d e) := by
  unfold slabOf
  refine (concatenate_apply_piece (t := S131072x120) 1 _ _ (ix2 n (slabE (at48n d e))) 2 ?_ S131072x48 _ rfl rfl 72 rfl (ix2 n (at48n d e))
    (fun b hb => match b with | ⟨0, _⟩ => rfl | ⟨1, _⟩ => absurd rfl hb) rfl).trans ?_
  · show 2 < 3; omega
  · exact Cert.AxisMerge.mergeLast_apply a2 _ rfl n d e (at48n d e) rfl

/-! ## The folded weights -/

variable (a3 : FVec Ideal S8x8 .f32) (a5 : FVec Ideal S6x8 .f32) (a7 : FVec Ideal S16x32 .f32) (a4 a6 : FVec Ideal S1x8 .f32) (a8 : FVec Ideal S1x32 .f32)

def loRows (a7 : FVec Ideal S16x32 .f32) : FVec Ideal S8x32 .f32 := extractStridedSlice S8x32 ![0, 0] a7 slices_S16x32_S8x32_0_0
def hiRows (a7 : FVec Ideal S16x32 .f32) : FVec Ideal S8x32 .f32 := extractStridedSlice S8x32 ![8, 0] a7 slices_S16x32_S8x32_8_0

theorem loRows_apply (k : Fin 8) (r : Fin 32) : loRows a7 (ix2 k r) = a7 (ix2 (lo k) r) :=
  slice2_axis0_apply 0 a7 _ k r (lo k) (by show k.val = 0 + k.val; omega)
theorem hiRows_apply (k : Fin 8) (r : Fin 32) : hiRows a7 (ix2 k r) = a7 (ix2 (hi k) r) :=
  slice2_axis0_apply 8 a7 _ k r (hi k) rfl

def nodeStage (a3 : FVec Ideal S8x8 .f32) (a7 : FVec Ideal S16x32 .f32) : FVec Ideal S8x32 .f32 :=
  mulf (Host.dotGeneral dot_S8x8_S8x32_S8x32_1_0_0_1_n_n (some .fp32) a3 (loRows a7))
    (broadcastInDim S8x32 ![] bcast_S_S8x32 (constant (F := Ideal) S_ .f32 0x3DE38E39#32))
def edgeStage (a5 : FVec Ideal S6x8 .f32) (a7 : FVec Ideal S16x32 .f32) : FVec Ideal S6x32 .f32 :=
  mulf (Host.dotGeneral dot_S6x8_S8x32_S6x32_1_0_0_1_n_n (some .fp32) a5 (hiRows a7))
    (broadcastInDim S6x32 ![] bcast_S_S6x32 (constant (F := Ideal) S_ .f32 0x3DE38E39#32))

theorem nodeStage_apply (f : Fin 8) (r : Fin 32) : nodeStage a3 a7 (ix2 f r) = nodeFold a3 a7 f r := by
  unfold nodeStage nodeFold
  exact congrArg₂ (· * ·)
    ((Cert.GraphConv.hostMM_apply _ rfl _ a3 (loRows a7) f r).trans
      (Finset.sum_congr rfl fun k _ => congrArg (a3 (ix2 f k) * ·) (loRows_apply a7 k r)))
    (broadcastInDim_scalar_apply _ _ _)

theorem edgeStage_apply (e : Fin 6) (r : Fin 32) : edgeStage a5 a7 (ix2 e r) = edgeFold a5 a7 e r := by
  unfold edgeStage edgeFold
  exact congrArg₂ (· * ·)
    ((Cert.GraphConv.hostMM_apply _ rfl _ a5 (hiRows a7) e r).trans
      (Finset.sum_congr rfl fun k _ => congrArg (a5 (ix2 e k) * ·) (hiRows_apply a7 k r)))
    (broadcastInDim_scalar_apply _ _ _)

def wallOf (a3 : FVec Ideal S8x8 .f32) (a5 : FVec Ideal S6x8 .f32) (a7 : FVec Ideal S16x32 .f32) : FVec Ideal S120x32 .f32 :=
  concatenate S120x32 0
    [⟨S72x32, shapeCast S72x32 (broadcastInDim S9x8x1x32 ![0, 1, 2, 3] bcast_S1x8x1x32_S9x8x1x32_0_1_2_3
        (shapeCast S1x8x1x32 (nodeStage a3 a7) shapeCasts_S8x32_S1x8x1x32)) shapeCasts_S9x8x1x32_S72x32⟩,
     ⟨S48x32, shapeCast S48x32 (broadcastInDim S8x6x1x32 ![0, 1, 2, 3] bcast_S1x6x1x32_S8x6x1x32_0_1_2_3
        (shapeCast S1x6x1x32 (edgeStage a5 a7) shapeCasts_S6x32_S1x6x1x32)) shapeCasts_S8x6x1x32_S48x32⟩]
    concatenates_S72x32_S48x32_S120x32_d0

/-- Rows 0–71: row 8t + f is the folded node weights' row f. -/
theorem wall_node (t : Fin 9) (f : Fin 8) (r : Fin 32) (p : Fin 120) (hp : p.val = 8 * t.val + f.val) :
    wallOf a3 a5 a7 (ix2 p r) = nodeFold a3 a7 f r := by
  have hp72 : p.val < 72 := by have := t.isLt; have := f.isLt; omega
  unfold wallOf
  refine (concatenate_pair_apply_left (t := S120x32) (s₁ := S72x32) (s₂ := S48x32) 0 _ _ _ (ix2 p r) rfl (ix2 (⟨p.val, hp72⟩ : Fin 72) r)
    (fun b => match b with | ⟨0, _⟩ => rfl | ⟨1, _⟩ => rfl)).trans ?_
  refine (Cert.AxisMerge.rowTile_apply (T := 9) (B := 8) (C := 32) (P := 72) (nodeStage a3 a7) _ _ _ t f r ⟨p.val, hp72⟩ hp).trans ?_
  exact nodeStage_apply a3 a7 f r

/-- Rows 72–119: row 72 + 6d + e is the folded edge weights' row e. -/
theorem wall_edge (d : Fin 8) (e : Fin 6) (r : Fin 32) :
    wallOf a3 a5 a7 (ix2 (slabE (at48n d e)) r) = edgeFold a5 a7 e r := by
  unfold wallOf
  refine (concatenate_pair_apply_right (t := S120x32) (s₁ := S72x32) (s₂ := S48x32) 0 _ _ _ (ix2 (slabE (at48n d e)) r) rfl rfl (ix2 (at48n d e) r)
    (fun b hb => match b with | ⟨0, _⟩ => absurd rfl hb | ⟨1, _⟩ => rfl)
    (by show 6 * d.val + e.val + 72 = 72 + (6 * d.val + e.val); omega)).trans ?_
  refine (Cert.AxisMerge.rowTile_apply (T := 8) (B := 6) (C := 32) (P := 48) (edgeStage a5 a7) _ _ _ d e r (at48n d e) rfl).trans ?_
  exact edgeStage_apply a5 a7 e r

/-! ## The folded bias -/

def biasOf (a4 a6 : FVec Ideal S1x8 .f32) (a7 : FVec Ideal S16x32 .f32) (a8 : FVec Ideal S1x32 .f32) : FVec Ideal S1x32 .f32 :=
  addf (addf (Host.dotGeneral dot_S1x8_S8x32_S1x32_1_0_0_1_n_n (some .fp32) a4 (loRows a7))
      (mulf (broadcastInDim S1x32 ![] bcast_S_S1x32 (constant (F := Ideal) S_ .f32 0x3F638E39#32))
        (Host.dotGeneral dot_S1x8_S8x32_S1x32_1_0_0_1_n_n (some .fp32) a6 (hiRows a7))))
    a8

theorem bias_apply (r : Fin 32) : biasOf a4 a6 a7 a8 (ix2 (0 : Fin 1) r) = biasFold a4 a6 a7 a8 r := by
  unfold biasOf biasFold
  exact congrArg₂ (· + ·)
    (congrArg₂ (· + ·)
      ((Cert.GraphConv.hostMM_apply _ rfl _ a4 (loRows a7) (0 : Fin 1) r).trans
        (Finset.sum_congr rfl fun k _ => congrArg (a4 (ix2 (0 : Fin 1) k) * ·) (loRows_apply a7 k r)))
      (congrArg₂ (· * ·) (broadcastInDim_scalar_apply _ _ _)
        ((Cert.GraphConv.hostMM_apply _ rfl _ a6 (hiRows a7) (0 : Fin 1) r).trans
          (Finset.sum_congr rfl fun k _ => congrArg (a6 (ix2 (0 : Fin 1) k) * ·) (hiRows_apply a7 k r)))))
    rfl

end Cert.ReferenceIdeal.Stages

end
-- ==== Proof.LibNary3.lean ====
/-
  General lemma for a host operation of THREE operands (a concatenation of three arrays), and the line-by-line reading
  of a host stretch that contains one.

  * `nary3_result`: the result of `StableHlo.nary ![x, a, b] y f` at its own buffer, with each operand's contents at
    its own reference (`Fin.cons (F ↑x) (Fin.cons (F ↑a) (Fin.cons (F ↑b) …))`) rather than under a binder, so that the
    operands' own contents can go on being rewritten.
  * `after_results3`: the line-by-line rewriting of `StableHlo.after ops V ↑r` with that lemma added.
-/
import Idealize.ShloMosaic.Lib.StableHlo.Run

namespace Cert.Nary3

open Idealize.ShloMosaic Idealize.ShloMosaic.StableHlo Idealize.SL.Sem

variable {τ : Topo} {sig : RefSig} {Val : EltTy → Type}

theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `after ops V ↑r` for a literal list of host operations, one of them a three-operand one, rewritten line by line to
    the operations' functions of the contents `V`. -/
macro "after_results3" : tactic =>
  `(tactic| (simp only [after_cons, after_nil]
             repeat (first
               | rw [nary3_result]
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.Nary3
-- ==== Proof.RefValue.lean ====
/-
  The reference's result, entry by entry: the mean-pool layer of the nine arguments.

  The region's 32 points each write a [4096, 32] tile: rows 4096·t … of the slab times the folded weight matrix, plus the
  folded bias row; the tiles cover the result, so the result at (n, r) is Σ_j slab(n, j)·W(j, r) + b(r) of the three
  arrays the region finds. Those are what the host stretch built from the launch arguments; stretch by stretch of the 120
  positions the factors are the node's features and the folded weights, which is the layer.
-/
import proofs.«100832_g2000702531665673_pallasbulk_716_14_alg».proof.Proof.RefRun
import proofs.«100832_g2000702531665673_pallasbulk_716_14_alg».proof.Proof.RefStages
import proofs.«100832_g2000702531665673_pallasbulk_716_14_alg».proof.Proof.LibNary3
import Idealize.ShloMosaic.Lib.Pipeline.Value

set_option maxRecDepth 16384

noncomputable section

open scoped BigOperators

namespace Cert.ReferenceIdeal.Result

open Cert.ReferenceIdeal Cert.ReferenceIdeal.Gen Cert.ReferenceIdeal.Hand Cert.ReferenceIdeal.Stages Cert.MeanPool Cert.Nary3
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## One tile -/

/-- The body's arithmetic at (p, r): the tile's row p times column r of the weights, plus the bias. -/
theorem tile_apply (x0 : Vec Ideal S4096x120 .f32) (x1 : Vec Ideal S120x32 .f32) (x2 : Vec Ideal S1x32 .f32) (p : Fin 4096) (r : Fin 32) :
    k0_pay1 (F := Ideal) x0 x1 x2 (ix2 p r) = (∑ j : Fin 120, x0 (ix2 p j) * x1 (ix2 j r)) + x2 (ix2 (0 : Fin 1) r) := by
  unfold k0_pay1
  refine (Cert.PlainLayers.dense_bias_apply _ rfl none (shapeCast S4096x120 x0 shapeCasts_S4096x120_S4096x120)
    (shapeCast S120x32 x1 shapeCasts_S120x32_S120x32) x2 _ _ p r).trans ?_
  rw [shapeCast_self, shapeCast_self]

/-! ## The whole result, of the arrays the region finds -/

def denseAt (S : S131072x120.Idx → EReal) (W : S120x32.Idx → EReal) (b : S1x32.Idx → EReal) (n : Fin 131072) (r : Fin 32) : EReal :=
  (∑ j : Fin 120, S (ix2 n j) * W (ix2 j r)) + b (ix2 (0 : Fin 1) r)

def denseAll (S : S131072x120.Idx → EReal) (W : S120x32.Idx → EReal) (b : S1x32.Idx → EReal) : S131072x32.Idx → EReal :=
  fun i => denseAt S W b (i 0) (i 1)

section Region

variable (V : (c : Dev nD) → (b : Ref sig .tc) → Buf (Elt Ideal) ((c : Thread nD τ).loc b))

/-- Where each window's block sits at point t: the slab and the result move down the node axis with the point, the
    weights and the bias stay. -/
theorem idxR : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is tile t of the whole-array function. -/
theorem flushed_eq (c : Dev nD) (t : Fin cfg0.N) :
    (dat V c).flushed 3 t = ((cfg0.win 3).blk t).view.read (Elt Ideal) (denseAll (V c main_v2) (V c main_v17) (V c main_v23)) := by
  show (cfg0.win 3).cut (grid0.coords t) ((dat V c).after 3 t) = _
  rw [after_out]
  unfold tileOut
  rw [View.canon_unit_zero hz]
  simp only [View.ld_unit_zero (S := S4096x120) hz, View.ld_unit_zero (S := S120x32) hz, View.ld_unit_zero (S := S1x32) hz]
  obtain ⟨e00, e01, e10, e11, e20, e21, e30, e31⟩ := idxR t
  have ht : t.val < 32 := lt_of_lt_of_eq t.isLt N_0
  funext j
  obtain ⟨p, r, rfl⟩ : ∃ (p : Fin 4096) (r : Fin 32), j = ix2 p r := ⟨j 0, j 1, eq_ix2 j⟩
  have hn : 4096 * t.val + p.val < 131072 := by have := p.isLt; omega
  have hout : ((cfg0.win 3).blk t).view.emb (ix2 p r) = ix2 (⟨4096 * t.val + p.val, hn⟩ : Fin 131072) r := by
    funext a; apply Fin.ext
    match a with
    | ⟨0, _⟩ => show win0_3.index t (0 : Fin 2) * 4096 + 1 * p.val = 4096 * t.val + p.val; omega
    | ⟨1, _⟩ => show win0_3.index t (1 : Fin 2) * 32 + 1 * r.val = r.val; omega
  have hS : ∀ k : Fin 120, blk V c 0 t (ix2 p k) = V c main_v2 (ix2 (⟨4096 * t.val + p.val, hn⟩ : Fin 131072) k) := fun k => by
    show V c main_v2 (((cfg0.win 0).blk t).view.emb (ix2 p k)) = _
    refine congrArg _ (funext fun a => Fin.ext ?_)
    match a with
    | ⟨0, _⟩ => show win0_0.index t (0 : Fin 2) * 4096 + 1 * p.val = 4096 * t.val + p.val; omega
    | ⟨1, _⟩ => show win0_0.index t (1 : Fin 2) * 120 + 1 * k.val = k.val; omega
  have hW : ∀ k : Fin 120, blk V c 1 t (ix2 k r) = V c main_v17 (ix2 k r) := fun k => by
    show V c main_v17 (((cfg0.win 1).blk t).view.emb (ix2 k r)) = _
    refine congrArg _ (funext fun a => Fin.ext ?_)
    match a with
    | ⟨0, _⟩ => show win0_1.index t (0 : Fin 2) * 120 + 1 * k.val = k.val; omega
    | ⟨1, _⟩ => show win0_1.index t (1 : Fin 2) * 32 + 1 * r.val = r.val; omega
  have hB : blk V c 2 t (ix2 (0 : Fin 1) r) = V c main_v23 (ix2 (0 : Fin 1) r) := by
    show V c main_v23 (((cfg0.win 2).blk t).view.emb (ix2 (0 : Fin 1) r)) = _
    refine congrArg _ (funext fun a => Fin.ext ?_)
    match a with
    | ⟨0, _⟩ => show win0_2.index t (0 : Fin 2) * 1 + 1 * 0 = 0; omega
    | ⟨1, _⟩ => show win0_2.index t (1 : Fin 2) * 32 + 1 * r.val = r.val; omega
  show k0_pay1 (F := Ideal) (blk V c 0 t) (blk V c 1 t) (blk V c 2 t) (ix2 p r)
    = denseAll (V c main_v2) (V c main_v17) (V c main_v23) (((cfg0.win 3).blk t).view.emb (ix2 p r))
  rw [hout]
  refine (tile_apply (blk V c 0 t) (blk V c 1 t) (blk V c 2 t) p r).trans ?_
  show _ = denseAt (V c main_v2) (V c main_v17) (V c main_v23) ⟨4096 * t.val + p.val, hn⟩ r
  unfold denseAt
  exact congrArg₂ (· + ·) (Finset.sum_congr rfl fun k _ => congrArg₂ (· * ·) (hS k) (hW k)) hB

theorem mem_blk (t : Fin cfg0.N) (i : S131072x32.Idx) :
    i ∈ ((cfg0.win 3).blk t).view.set ↔ ∀ a : Fin 2, win0_3.index t a * S4096x32.size a ≤ (i a).val ∧ (i a).val < win0_3.index t a * S4096x32.size a + S4096x32.size a := by
  show i ∈ ((View.whole main_v24).slice (win0_3.rect t)).set ↔ _
  rw [View.set_slice_whole, Rect.mem_set_unit]
  exact Iff.rfl

/-- THE RESULT ARRAY: the whole-array function of the three arrays the region finds. -/
theorem final (c : Dev nD) : (dat V c).arrAt 3 cfg0.N = denseAll (V c main_v2) (V c main_v17) (V c main_v23) :=
  (dat V c).arrAt_eq_of_cover 3 _ (fun t _ => flushed_eq V c t) (fun i => by
    have h0 : (i 0).val < 131072 := (i 0).isLt
    have h1 : (i 1).val < 32 := (i 1).isLt
    have ht : (i 0).val / 4096 < cfg0.N := by rw [show cfg0.N = 32 from N_0]; omega
    refine ⟨⟨(i 0).val / 4096, ht⟩, flush0_3 _, ?_⟩
    obtain ⟨e00, e01, e10, e11, e20, e21, e30, e31⟩ := idxR ⟨(i 0).val / 4096, ht⟩
    rw [mem_blk]
    intro a
    match a with
    | ⟨0, _⟩ =>
      show win0_3.index ⟨(i 0).val / 4096, ht⟩ (0 : Fin 2) * 4096 ≤ (i 0).val ∧ (i 0).val < win0_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ => show win0_3.index ⟨(i 0).val / 4096, ht⟩ (1 : Fin 2) * 32 ≤ (i 1).val ∧ (i 1).val < win0_3.index ⟨(i 0).val / 4096, ht⟩ (1 : Fin 2) * 32 + 32; omega)

end Region

/-! ## What the region finds, and the result -/

variable (m : (ℓ : Loc nD τ sig) → Buf (Elt Ideal) ℓ) (ρ : Dev nD → PrngReg)

theorem entry_slab (c : Dev nD) : (V1 m ρ c main_v2 : S131072x120.Idx → EReal) = slabOf (m ((c : Thread nD τ).loc main_arg0)) (m ((c : Thread nD τ).loc main_arg1)) (m ((c : Thread nD τ).loc main_arg2)) := by
  show StableHlo.after hostOps0 (W0 m ρ c) (Proc.devRef .tc main_v2) = _
  after_results3
  rfl

theorem entry_wall (c : Dev nD) : (V1 m ρ c main_v17 : S120x32.Idx → EReal) = wallOf (m ((c : Thread nD τ).loc main_arg3)) (m ((c : Thread nD τ).loc main_arg5)) (m ((c : Thread nD τ).loc main_arg7)) := by
  show StableHlo.after hostOps0 (W0 m ρ c) (Proc.devRef .tc main_v17) = _
  after_results_simp
  rfl

theorem entry_bias (c : Dev nD) : (V1 m ρ c main_v23 : S1x32.Idx → EReal) = biasOf (m ((c : Thread nD τ).loc main_arg4)) (m ((c : Thread nD τ).loc main_arg6)) (m ((c : Thread nD τ).loc main_arg7)) (m ((c : Thread nD τ).loc main_arg8)) := by
  show StableHlo.after hostOps0 (W0 m ρ c) (Proc.devRef .tc main_v23) = _
  after_results_simp
  rfl

/-- THE REFERENCE'S RESULT at node n, output feature r: the layer. -/
theorem result_apply (c : Dev nD) (n : Fin 131072) (r : Fin 32) :
    (W2 m ρ c (Proc.devRef .tc main_v24) : S131072x32.Idx → EReal) (ix2 n r)
      = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n r := by
  rw [show W2 m ρ c (Proc.devRef .tc main_v24) = (dat (V1 m ρ) c).arrAt 3 cfg0.N from W2_arr m ρ c 3, final]
  show denseAt (V1 m ρ c main_v2) (V1 m ρ c main_v17) (V1 m ρ c main_v23) n r = _
  unfold denseAt
  rw [entry_slab, entry_wall, entry_bias]
  refine pooled_of_slab _ _ _ _ _ _ _ _ _ n r _ _ _ (fun f => slab_x _ _ _ n f) (fun f => wall_node _ _ _ (0 : Fin 9) f r (slabX f) (by show f.val = 8 * 0 + f.val; omega))
    (fun d f => slab_s _ _ _ n d f)
    (fun d f => wall_node _ _ _ (⟨d.val + 1, by omega⟩ : Fin 9) f r (slabS (at64 d f)) (by show 8 + (8 * d.val + f.val) = 8 * (d.val + 1) + f.val; omega))
    (fun d e => slab_e _ _ _ n d e) (fun d e => wall_edge _ _ _ d e r) (bias_apply _ _ _ _ r)

/-- The result buffer as one function. -/
theorem result_eq (c : Dev nD) : (W2 m ρ c (Proc.devRef .tc main_v24) : S131072x32.Idx → EReal)
    = fun i => pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  funext i
  obtain ⟨n, r, rfl⟩ : ∃ (n : Fin 131072) (r : Fin 32), i = ix2 n r := ⟨i 0, i 1, eq_ix2 i⟩
  exact result_apply m ρ c n r

end Cert.ReferenceIdeal.Result

end
-- ==== Proof.lean ====
/-
  The proof of `Cert.Claim`: the kernel and its reference both compute the mean-pool layer.

  For a node n with features x(n, ·), neighbour features xs(n, d, ·) and edge features ef(n, d, ·), both programs end with
      pooled(n, r) = Σ_f x(n,f)·N(f,r) + Σ_d Σ_f xs(n,d,f)·N(f,r) + Σ_d Σ_e ef(n,d,e)·E(e,r) + B(r)
  in their result at (n, r), where N, E and B are the node weights, edge weights and biases folded through the reduce
  weights (Proof/Spec.lean). The kernel folds the weights in a first region, lays the features feature-major and
  multiplies in a second region of 8 points, three products of lengths 8, 64 and 48 (Proof/KerValue.lean); the
  reference lays each node's 120 features side by side, folds the weights on the host and multiplies once per tile in
  a region of 32 points (Proof/RefValue.lean). The two arrangements are the same sums in another order with the factors
  of each product swapped, equal on all extended reals, so the precondition is not used.
  The three frames: the kernel's two are the generated ones; the reference's is its run (Proof/RefRun.lean) with the
  result forgotten. The idealization rewrote nothing, so there is nothing to preserve.
-/
import proofs.«100832_g2000702531665673_pallasbulk_716_14_alg».proof.Defs
import proofs.«100832_g2000702531665673_pallasbulk_716_14_alg».proof.Proof.Gen.Kernel
import proofs.«100832_g2000702531665673_pallasbulk_716_14_alg».proof.Proof.Gen.Kernel.Frame
import proofs.«100832_g2000702531665673_pallasbulk_716_14_alg».proof.Proof.Gen.KernelIdeal
import proofs.«100832_g2000702531665673_pallasbulk_716_14_alg».proof.Proof.Gen.KernelIdeal.Frame
import proofs.«100832_g2000702531665673_pallasbulk_716_14_alg».proof.Proof.Gen.ReferenceIdeal
import proofs.«100832_g2000702531665673_pallasbulk_716_14_alg».proof.Proof.Gen.Pre_finite_inputs
import proofs.«100832_g2000702531665673_pallasbulk_716_14_alg».proof.Proof.KerRun
import proofs.«100832_g2000702531665673_pallasbulk_716_14_alg».proof.Proof.KerValue
import proofs.«100832_g2000702531665673_pallasbulk_716_14_alg».proof.Proof.RefRun
import proofs.«100832_g2000702531665673_pallasbulk_716_14_alg».proof.Proof.RefValue
import Idealize.ShloMosaic.Adequacy
import Idealize.ShloMosaic.Init

noncomputable section

namespace Cert.Proof

open Idealize.ShloMosaic Idealize.SL.Sem Cert.MeanPool

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both runs end with the layer `pooled` of the arguments in their result buffers; the arguments agree. -/
theorem algebraic : Cert.algebraic_KernelIdeal_ReferenceIdeal := by
  intro m ρ m' ρ' _ hagree
  refine ⟨fun c => fun i => pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1), ?_, ?_⟩
  · exact (θ_run Cert.KernelIdeal.defs _ _).mono
      (fun _ h c => ⟨(h c).1.trans (Cert.KernelIdeal.Result.result_eq m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Result.result_eq m' ρ' c]
    obtain ⟨h0, h1, h2, h3, h4, h5, h6, h7, h8⟩ := hagree c
    rw [h0, h1, h2, h3, h4, h5, h6, h7, h8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
